-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S4x64 .f32) (main_arg15 : FVec F S4 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S4 .f32 := Host.absf main_arg15
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S4x64 .f32) (main_arg15 : FVec F S4 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S4x64 .f32) (main_arg15 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : FVec F S1600000 .f32) (main_arg3 : IVec S100000 32) (main_arg4 : FVec F S64x64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S4x64 .f32) (main_arg15 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S4 : Shape := ⟨1, ![4]⟩
abbrev S1x1600000 : Shape := ⟨2, ![1, 1600000]⟩
abbrev S_ : Shape := ⟨0, ![]⟩
abbrev S1600000x1 : Shape := ⟨2, ![1600000, 1]⟩
abbrev S10000x64 : Shape := ⟨2, ![10000, 64]⟩
abbrev S1600000x64 : Shape := ⟨2, ![1600000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1x4 : Shape := ⟨2, ![1, 4]⟩
abbrev S1024x4 : Shape := ⟨2, ![1024, 4]⟩
abbrev S64x4 : Shape := ⟨2, ![64, 4]⟩

abbrev nBuf : Space → Nat
  | .hbm => 112
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S4x64, .f32⟩
  | .hbm, ⟨15, _⟩ => ⟨S4, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S100000x64, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1600000x1, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S100000x64, .f32⟩
  | .hbm, ⟨99, _⟩ => ⟨S_, .f32⟩
  | .hbm, ⟨100, _⟩ => ⟨S1024x64, .f32⟩
  | .hbm, ⟨101, _⟩ => ⟨S100000x1, .i32⟩
  | .hbm, ⟨102, _⟩ => ⟨S1024x64, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S1024, .f32⟩
  | .hbm, ⟨107, _⟩ => ⟨S100000x1, .i32⟩
  | .hbm, ⟨108, _⟩ => ⟨S1024, .f32⟩
  | .hbm, ⟨109, _⟩ => ⟨S1024x1, .f32⟩
  | .hbm, ⟨110, _⟩ => ⟨S1x4, .f32⟩
  | .hbm, ⟨111, _⟩ => ⟨S1024x4, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1024x64, .f32⟩
  | .local _ .vmem, ⟨27, _⟩ => ⟨S1024x1, .f32⟩
  | .local _ .vmem, ⟨28, _⟩ => ⟨S4x64, .f32⟩
  | .local _ .vmem, ⟨29, _⟩ => ⟨S1x4, .f32⟩
  | .local _ .vmem, ⟨30, _⟩ => ⟨S1024x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem1_0 : DmaSem sig := 27
abbrev cc4_sem2_0 : DmaSem sig := 28
abbrev cc4_sem3_0 : DmaSem sig := 29
abbrev cc4_sem4_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  shapeCasts_S1024_S1024x1 : S1024.ShapeCasts S1024x1
  shapeCasts_S4_S1x4 : S4.ShapeCasts S1x4
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S4x64_S4x64_0_0 : ∀ a, (![0, 0] : Fin 2 → Nat) a + S4x64.size a ≤ S4x64.size a
  h_S4x64 : 0 < S4x64.numel
  transposes_S4x64_p1_0_S64x4 : S4x64.Transposes [1, 0] S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  inb_S1024x4_S1024x4_0_0 : ∀ a, (![0, 0] : Fin 2 → Nat) a + S1024x4.size a ≤ S1024x4.size a
  h_S1024x4 : 0 < S1024x4.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x4_S1024x4_1_0_0_1_n_n_wf : DotDims.WF S1024x64 S64x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S1024x64.size a
  hwx4_0 : ∀ i : grid4.Coords, EltTy.bits .f32 = 32 ∨ (Rect.block (s := S1024x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S1024x1.size a
  hwx4_1 : ∀ i : grid4.Coords, EltTy.bits .f32 = 32 ∨ (Rect.block (s := S1024x1) S1024x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4x64.size a ≤ S4x64.size a
  hwx4_2 : ∀ i : grid4.Coords, EltTy.bits .f32 = 32 ∨ (Rect.block (s := S4x64) S4x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x4.size a ≤ S1x4.size a
  hwx4_3 : ∀ i : grid4.Coords, EltTy.bits .f32 = 32 ∨ (Rect.block (s := S1x4) S1x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024x4.size a ≤ S1024x4.size a
  hwx4_4 : ∀ i : grid4.Coords, EltTy.bits .f32 = 32 ∨ (Rect.block (s := S1024x4) S1024x4.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x4_S1024x4_1_0_0_1_n_n : DotDims S1024x64 S64x4 S1024x4 where
  lhsContracting := [1]
  rhsContracting := [0]
  lhsNonContracting := [0]
  rhsNonContracting := [1]
  lhsBatch := []
  rhsBatch := []
  wf := dot_S1024x64_S64x4_S1024x4_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S1024x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v74) S1024x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S4x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1024x4.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S4x64 : Shape := ⟨2, ![4, 64]⟩
abbrev S4 : Shape := ⟨1, ![4]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S64x4 : Shape := ⟨2, ![64, 4]⟩
abbrev S1024x4 : Shape := ⟨2, ![1024, 4]⟩
abbrev S1x4 : Shape := ⟨2, ![1, 4]⟩

abbrev nBuf : Space → Nat
  | .hbm => 182
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S4x64, .f32⟩
  | 15 => ⟨S4, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S64x64, .f32⟩
  | 56 => ⟨S100000x64, .f32⟩
  | 57 => ⟨S1x1600000, .i32⟩
  | 58 => ⟨S1600000, .i32⟩
  | 59 => ⟨S1x1600000, .i32⟩
  | 60 => ⟨S1600000, .i32⟩
  | 61 => ⟨S1600000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .i1⟩
  | 96 => ⟨S_, .f32⟩
  | 97 => ⟨S100000x64, .f32⟩
  | 98 => ⟨S100000x64, .i1⟩
  | 99 => ⟨S_, .f32⟩
  | 100 => ⟨S_, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S64x64, .f32⟩
  | 109 => ⟨S100000x64, .f32⟩
  | 110 => ⟨S1x1600000, .i32⟩
  | 111 => ⟨S1600000, .i32⟩
  | 112 => ⟨S1x1600000, .i32⟩
  | 113 => ⟨S1600000, .i32⟩
  | 114 => ⟨S1600000x1, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x64, .f32⟩
  | 125 => ⟨S1600000x64, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S64, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .i1⟩
  | 21 => ⟨S_, .f32⟩
  | 22 => ⟨S100000x64, .f32⟩
  | 23 => ⟨S100000x64, .i1⟩
  | 24 => ⟨S_, .f32⟩
  | 25 => ⟨S_, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S_, .f32⟩
  | 34 => ⟨S1024x64, .f32⟩
  | 35 => ⟨S100000x1, .i32⟩
  | 36 => ⟨S1024x64, .f32⟩
  | 37 => ⟨S_, .f32⟩
  | 38 => ⟨S100000, .f32⟩
  | 39 => ⟨S_, .f32⟩
  | 40 => ⟨S1024, .f32⟩
  | 41 => ⟨S100000x1, .i32⟩
  | 42 => ⟨S1024, .f32⟩
  | 43 => ⟨S_, .f32⟩
  | 44 => ⟨S1024, .f32⟩
  | 45 => ⟨S1024, .f32⟩
  | 46 => ⟨S1024x1, .f32⟩
  | 47 => ⟨S1024x64, .f32⟩
  | 48 => ⟨S1024x64, .f32⟩
  | 49 => ⟨S64x4, .f32⟩
  | 50 => ⟨S1024x4, .f32⟩
  | 51 => ⟨S1x4, .f32⟩
  | 52 => ⟨S1024x4, .f32⟩
  | 53 => ⟨S1024x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_cst_1 : Ref sig .tc := ⟨.hbm, 99, rfl⟩
abbrev main_call1_call0_v0 : Ref sig .tc := ⟨.hbm, 100, rfl⟩
abbrev main_call1_call0_v1 : Ref sig .tc := ⟨.hbm, 101, rfl⟩
abbrev main_call1_v4 : Ref sig .tc := ⟨.hbm, 102, rfl⟩
abbrev main_call1_v5 : Ref sig .tc := ⟨.hbm, 103, rfl⟩
abbrev main_call1_cst_2 : Ref sig .tc := ⟨.hbm, 104, rfl⟩
abbrev main_call1_v6 : Ref sig .tc := ⟨.hbm, 105, rfl⟩
abbrev main_call1_v7 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_10 : Ref sig .tc := ⟨.hbm, 115, rfl⟩
abbrev main_v71 : Ref sig .tc := ⟨.hbm, 116, rfl⟩
abbrev main_v72 : Ref sig .tc := ⟨.hbm, 117, rfl⟩
abbrev main_c_11 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_12 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_13 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_cst_1 : Ref sig .tc := ⟨.hbm, 152, rfl⟩
abbrev main_call2_call0_v0 : Ref sig .tc := ⟨.hbm, 153, rfl⟩
abbrev main_call2_call0_v1 : Ref sig .tc := ⟨.hbm, 154, rfl⟩
abbrev main_call2_v4 : Ref sig .tc := ⟨.hbm, 155, rfl⟩
abbrev main_call2_v5 : Ref sig .tc := ⟨.hbm, 156, rfl⟩
abbrev main_call2_cst_2 : Ref sig .tc := ⟨.hbm, 157, rfl⟩
abbrev main_call2_v6 : Ref sig .tc := ⟨.hbm, 158, rfl⟩
abbrev main_call2_v7 : Ref sig .tc := ⟨.hbm, 159, rfl⟩
abbrev main_v98 : Ref sig .tc := ⟨.hbm, 160, rfl⟩
abbrev main_cst_14 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_15 : Ref sig .tc := ⟨.hbm, 165, rfl⟩
abbrev main_v102 : Ref sig .tc := ⟨.hbm, 166, rfl⟩
abbrev main_cst_16 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_17 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  transposes_S64x64_S64x64_1_0 : S64x64.Transposes [1, 0] S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S4x64_S64x4_1_0 : S4x64.Transposes [1, 0] S64x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x4_S1024x4_1_0_0_1_n_n_wf : DotDims.WF S1024x64 S64x4 S1024x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x4_S1024x4_1_0_0_1_n_n : DotDims S1024x64 S64x4 S1024x4 where
  lhsContracting := [1]
  rhsContracting := [0]
  lhsNonContracting := [0]
  rhsNonContracting := [1]
  lhsBatch := []
  rhsBatch := []
  wf := dot_S1024x64_S64x4_S1024x4_1_0_0_1_n_n_wf

class Facts : Prop extends Facts₀ where

variable [Facts]
-- ==== Proof.KernelRun.lean ====
/-
  The run of the idealized kernel program with its RESULT kept: every weakly fair execution of @main ends, nothing
  faulting, with the result array %76 at what the last region's write-backs leave of the contents the fold through
  the host stretches and the regions gives, and every argument array as launched. The frame claim forgets the result
  array; this is the same launch over the same segments, read once more at the result's buffer.
-/
import proofs.«171306_j22711787061812_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The launch over @main's eleven segments; the last thread state holds every unscoped buffer at the last boundary's
    contents, read here at the result buffer and at the sixteen arguments. -/
theorem run_out : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.Hand

end
-- ==== Proof.Spec.lean ====
/-
  The host-side stages of the graph classifier, each as one function of arrays, written with the reference
  program's own operations: the symmetric edge normalisation, one layer's neighbourhood sum, the dense projection,
  the batch normalisation followed by ELU, the per-graph sums and counts, and the mean pooling followed by the
  classifier. `refOut` composes them into the whole network: the value both programs are shown to compute.
-/
import proofs.«171306_j22711787061812_1_alg».proof.ReferenceIdeal
import Idealize.ShloMosaic.PureOps.Ideal

noncomputable section

namespace Cert.Spec

open Idealize.ShloMosaic
open Cert.ReferenceIdeal Cert.ReferenceIdeal.Facts₀

variable {F : FTy → Type} [FloatOps F] [Cert.ReferenceIdeal.Facts]

/-- Source node of every edge: row 0 of the edge table. -/
def rowT (e : IVec S2x1600000 32) : IVec S1600000 32 :=
  shapeCast S1600000 (extractStridedSlice S1x1600000 ![0, 0] e slices_S2x1600000_S1x1600000_0_0) shapeCasts_S1x1600000_S1600000

/-- Target node of every edge: row 1 of the edge table. -/
def colT (e : IVec S2x1600000 32) : IVec S1600000 32 :=
  shapeCast S1600000 (extractStridedSlice S1x1600000 ![1, 0] e slices_S2x1600000_S1x1600000_1_0) shapeCasts_S1x1600000_S1600000

/-- A node index as a gather start: a negative index counts from the end, then one index per row. -/
def gidx (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- Weighted in-degree of every node: the edge weights summed over the edges that point at it. -/
def degT (e : IVec S2x1600000 32) (w : FVec F S1600000 .f32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (colT e)) w

/-- deg^(-1/2) where the degree is positive, zero elsewhere. -/
def disT (e : IVec S2x1600000 32) (w : FVec F S1600000 .f32) : FVec F S100000 .f32 :=
  select (cmpf .ogt (degT e w) (broadcastInDim S100000 ![] bcast_S_S100000 (constant S_ .f32 0x00000000#32)))
    (Host.rsqrt (maximumf (degT e w) (broadcastInDim S100000 ![] bcast_S_S100000 (constant S_ .f32 0x0DA24260#32))))
    (broadcastInDim S100000 ![] bcast_S_S100000 (constant S_ .f32 0x00000000#32))

/-- The symmetric normalisation of every edge: dis[row] · weight · dis[col]. -/
def nrmT (e : IVec S2x1600000 32) (w : FVec F S1600000 .f32) : FVec F S1600000 .f32 :=
  mulf (mulf (Host.gather gather_S100000_S1600000x1_S1600000_n_0_n_n_0_1_1 (disT e w) (gidx (rowT e))) w)
    (Host.gather gather_S100000_S1600000x1_S1600000_n_0_n_n_0_1_1 (disT e w) (gidx (colT e)))

/-- One layer's message passing: every node sums norm · h[row] over the edges that point at it. -/
def aggT (row col : IVec S1600000 32) (nrm : FVec F S1600000 .f32) (h : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 col)
    (mulf (broadcastInDim S1600000x64 ![0, 1] bcast_S1600000x1_S1600000x64_0_1 (broadcastInDim S1600000x1 ![0] bcast_S1600000_S1600000x1_0 nrm))
      (Host.gather gather_S100000x64_S1600000x1_S1600000x64_1_0_n_n_0_1_164 h (gidx row)))

/-- The dense projection x · Wᵀ. -/
def linT (x : FVec F S100000x64 .f32) (w : FVec F S64x64 .f32) : FVec F S100000x64 .f32 :=
  Host.dotGeneral dot_S100000x64_S64x64_S100000x64_1_0_0_1_n_n none x (transpose S64x64 [1, 0] w transposes_S64x64_S64x64_1_0)

/-- A per-feature vector repeated along the nodes. -/
def rows (v : FVec F S64 .f32) : FVec F S100000x64 .f32 :=
  broadcastInDim S100000x64 ![0, 1] bcast_S1x64_S100000x64_0_1 (broadcastInDim S1x64 ![1] bcast_S64_S1x64_1 v)

/-- ELU as the reference library spells it: x where x > 0, otherwise 1 · expm1 (x masked to 0 where x > 0). -/
def eluT (x : FVec F S100000x64 .f32) : FVec F S100000x64 .f32 :=
  select (cmpf .ogt x (broadcastInDim S100000x64 ![] bcast_S_S100000x64 (constant S_ .f32 0x00000000#32))) x
    (mulf (broadcastInDim S100000x64 ![] bcast_S_S100000x64 (constant S_ .f32 0x3F800000#32))
      (Host.expm1 (select (cmpf .ogt x (broadcastInDim S100000x64 ![] bcast_S_S100000x64 (constant S_ .f32 0x00000000#32)))
        (broadcastInDim S100000x64 ![] bcast_S_S100000x64 (constant S_ .f32 0x00000000#32)) x)))

/-- Inference-mode batch normalisation, ((a − mean) · rsqrt(var + ε)) · γ + β per feature, then ELU. -/
def bnEluT (a : FVec F S100000x64 .f32) (rm rv g b : FVec F S64 .f32) : FVec F S100000x64 .f32 :=
  eluT (addf (mulf (mulf (subf a (rows rm))
      (rows (Host.rsqrt (addf rv (broadcastInDim S64 ![] bcast_S_S64 (constant S_ .f32 0x3727C5AC#32))))))
      (rows g)) (rows b))

/-- Per-graph feature sums: the node features summed over the nodes of each graph. -/
def sumsT (batch : IVec S100000 32) (x : FVec F S100000x64 .f32) : FVec F S1024x64 .f32 :=
  Host.scatterAdd scatter_S1024x64_S100000x1_S100000x64_1_0_0_1
    (broadcastInDim S1024x64 ![] bcast_S_S1024x64 (constant S_ .f32 0x00000000#32))
    (broadcastInDim S100000x1 ![0] bcast_S100000_S100000x1_0 batch) x

/-- Per-graph node counts: a one summed over the nodes of each graph. -/
def cntT (batch : IVec S100000 32) : FVec F S1024 .f32 :=
  Host.scatterAdd scatter_S1024_S100000x1_S100000_n_0_0_1
    (broadcastInDim S1024 ![] bcast_S_S1024 (constant S_ .f32 0x00000000#32))
    (broadcastInDim S100000x1 ![0] bcast_S100000_S100000x1_0 batch)
    (broadcastInDim S100000 ![] bcast_S_S100000 (constant S_ .f32 0x3F800000#32))

/-- Mean pooling (sums over max(count, 1)) followed by the classifier pooled · lnWᵀ + lnb. -/
def poolT (sums : FVec F S1024x64 .f32) (cnt : FVec F S1024 .f32) (lnW : FVec F S4x64 .f32) (lnb : FVec F S4 .f32) : FVec F S1024x4 .f32 :=
  addf (Host.dotGeneral dot_S1024x64_S64x4_S1024x4_1_0_0_1_n_n none
      (Host.divf sums (broadcastInDim S1024x64 ![0, 1] bcast_S1024x1_S1024x64_0_1 (broadcastInDim S1024x1 ![0] bcast_S1024_S1024x1_0
        (maximumf cnt (broadcastInDim S1024 ![] bcast_S_S1024 (constant S_ .f32 0x3F800000#32))))))
      (transpose S64x4 [1, 0] lnW transposes_S4x64_S64x4_1_0))
    (broadcastInDim S1024x4 ![0, 1] bcast_S1x4_S1024x4_0_1 (broadcastInDim S1x4 ![1] bcast_S4_S1x4_1 lnb))

/-- One graph-convolution layer: project, aggregate over the edges, normalise, ELU. -/
def layerT (e : IVec S2x1600000 32) (nrm : FVec F S1600000 .f32) (x : FVec F S100000x64 .f32) (w : FVec F S64x64 .f32)
    (g b rm rv : FVec F S64 .f32) : FVec F S100000x64 .f32 :=
  bnEluT (aggT (rowT e) (colT e) nrm (linT x w)) rm rv g b

/-- The whole network on the sixteen argument arrays, in the order of the entry point's parameters. -/
def refOut (a0 : FVec F S100000x64 .f32) (a1 : IVec S2x1600000 32) (a2 : FVec F S1600000 .f32) (a3 : IVec S100000 32)
    (a4 : FVec F S64x64 .f32) (a5 a6 a7 a8 : FVec F S64 .f32) (a9 : FVec F S64x64 .f32) (a10 a11 a12 a13 : FVec F S64 .f32)
    (a14 : FVec F S4x64 .f32) (a15 : FVec F S4 .f32) : FVec F S1024x4 .f32 :=
  poolT (sumsT a3 (layerT a1 (nrmT a1 a2) (layerT a1 (nrmT a1 a2) a0 a4 a5 a6 a7 a8) a9 a10 a11 a12 a13)) (cntT a3) a14 a15

end Cert.Spec

end
-- ==== Proof.KernelStretches.lean ====
/-
  Each stretch of host operations of the kernel's program between its regions, read at the buffers the later steps
  use, from ANY buffer contents: the edge table's two rows, the inverse square-root degrees and the edge normalisation
  before the first region; each layer's neighbourhood sums and the batch-norm parameters as one-row matrices; the
  per-graph sums, the node counts as a column and the bias as a row before the last region. A buffer no operation of
  a stretch writes keeps its contents.
-/
import proofs.«171306_j22711787061812_1_alg».proof.Proof.Gen.KernelIdeal.Frame
import proofs.«171306_j22711787061812_1_alg».proof.Proof.Gen.ReferenceIdeal
import proofs.«171306_j22711787061812_1_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.Spec

variable {F : FTy → Type} [FloatOps F] (W : Valuation τ sig (Elt F))

/-! ## Each stretch of host operations, read at the buffers the later steps use, from ANY contents `W` -/

local macro "not_written" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- The normalisation from the inverse square-root degrees, the two endpoint rows and the weights. -/
abbrev nrmOf (dis : FVec F S100000 .f32) (row col : IVec S1600000 32) (w : FVec F S1600000 .f32) : FVec F S1600000 .f32 :=
  mulf (mulf (Host.gather Cert.ReferenceIdeal.gather_S100000_S1600000x1_S1600000_n_0_n_n_0_1_1 dis (gidx row)) w)
    (Host.gather Cert.ReferenceIdeal.gather_S100000_S1600000x1_S1600000_n_0_n_n_0_1_1 dis (gidx col))
attribute [local irreducible] Host.gather Host.scatterAdd Host.rsqrt Host.expm1 Host.divf in
set_option maxRecDepth 8192 in
set_option maxHeartbeats 1000000 in
theorem gA_dis : (StableHlo.after hostOps0_1 (StableHlo.after hostOps0 W) (Proc.devRef .tc main_v12) : FVec F S100000 .f32) = disT (F := F) (W (Proc.devRef .tc main_arg1)) (W (Proc.devRef .tc main_arg2)) := by
  dsimp only [hostOps0, hostOps0_1]
  after_results_simp
  try rfl
attribute [local irreducible] Host.gather Host.scatterAdd Host.rsqrt Host.expm1 Host.divf in
set_option maxRecDepth 8192 in
set_option maxHeartbeats 1000000 in
theorem gA_row : (StableHlo.after hostOps0_1 (StableHlo.after hostOps0 W) (Proc.devRef .tc main_v1) : IVec S1600000 32) = rowT (W (Proc.devRef .tc main_arg1)) := by
  dsimp only [hostOps0, hostOps0_1]
  after_results_simp
  try rfl
attribute [local irreducible] Host.gather Host.scatterAdd Host.rsqrt Host.expm1 Host.divf in
set_option maxRecDepth 8192 in
set_option maxHeartbeats 1000000 in
theorem gA_col : (StableHlo.after hostOps0_1 (StableHlo.after hostOps0 W) (Proc.devRef .tc main_v3) : IVec S1600000 32) = colT (W (Proc.devRef .tc main_arg1)) := by
  dsimp only [hostOps0, hostOps0_1]
  after_results_simp
  try rfl
attribute [local irreducible] Host.gather Host.scatterAdd Host.rsqrt Host.expm1 Host.divf in
set_option maxRecDepth 8192 in
set_option maxHeartbeats 1000000 in
theorem gB_nrm : (StableHlo.after hostOps0_2 W (Proc.devRef .tc main_v28) : FVec F S1600000 .f32) = nrmOf (W (Proc.devRef .tc main_v12)) (W (Proc.devRef .tc main_v1)) (W (Proc.devRef .tc main_v3)) (W (Proc.devRef .tc main_arg2)) := by
  dsimp only [hostOps0_2]
  after_results_simp
  try rfl
theorem gA_keep_arg2 : (StableHlo.after hostOps0_1 (StableHlo.after hostOps0 W)) (Proc.devRef .tc main_arg2) = W (Proc.devRef .tc main_arg2) :=
  calc (StableHlo.after hostOps0_1 (StableHlo.after hostOps0 W)) (Proc.devRef .tc main_arg2)
    _ = (StableHlo.after hostOps0 W) (Proc.devRef .tc main_arg2) := by not_written hostOps0_1
    _ = W (Proc.devRef .tc main_arg2) := by not_written hostOps0
theorem gB_keep_v1 : (StableHlo.after hostOps0_2 W) (Proc.devRef .tc main_v1) = W (Proc.devRef .tc main_v1) :=
  calc (StableHlo.after hostOps0_2 W) (Proc.devRef .tc main_v1)
    _ = W (Proc.devRef .tc main_v1) := by not_written hostOps0_2
theorem gB_keep_v3 : (StableHlo.after hostOps0_2 W) (Proc.devRef .tc main_v3) = W (Proc.devRef .tc main_v3) :=
  calc (StableHlo.after hostOps0_2 W) (Proc.devRef .tc main_v3)
    _ = W (Proc.devRef .tc main_v3) := by not_written hostOps0_2
theorem g03_keep_arg0 : (StableHlo.after hostOps0_2 (StableHlo.after hostOps0_1 (StableHlo.after hostOps0 W))) (Proc.devRef .tc main_arg0) = W (Proc.devRef .tc main_arg0) :=
  calc (StableHlo.after hostOps0_2 (StableHlo.after hostOps0_1 (StableHlo.after hostOps0 W))) (Proc.devRef .tc main_arg0)
    _ = (StableHlo.after hostOps0_1 (StableHlo.after hostOps0 W)) (Proc.devRef .tc main_arg0) := by not_written hostOps0_2
    _ = (StableHlo.after hostOps0 W) (Proc.devRef .tc main_arg0) := by not_written hostOps0_1
    _ = W (Proc.devRef .tc main_arg0) := by not_written hostOps0
theorem g03_keep_arg3 : (StableHlo.after hostOps0_2 (StableHlo.after hostOps0_1 (StableHlo.after hostOps0 W))) (Proc.devRef .tc main_arg3) = W (Proc.devRef .tc main_arg3) :=
  calc (StableHlo.after hostOps0_2 (StableHlo.after hostOps0_1 (StableHlo.after hostOps0 W))) (Proc.devRef .tc main_arg3)
    _ = (StableHlo.after hostOps0_1 (StableHlo.after hostOps0 W)) (Proc.devRef .tc main_arg3) := by not_written hostOps0_2
    _ = (StableHlo.after hostOps0 W) (Proc.devRef .tc main_arg3) := by not_written hostOps0_1
    _ = W (Proc.devRef .tc main_arg3) := by not_written hostOps0
theorem g03_keep_arg4 : (StableHlo.after hostOps0_2 (StableHlo.after hostOps0_1 (StableHlo.after hostOps0 W))) (Proc.devRef .tc main_arg4) = W (Proc.devRef .tc main_arg4) :=
  calc (StableHlo.after hostOps0_2 (StableHlo.after hostOps0_1 (StableHlo.after hostOps0 W))) (Proc.devRef .tc main_arg4)
    _ = (StableHlo.after hostOps0_1 (StableHlo.after hostOps0 W)) (Proc.devRef .tc main_arg4) := by not_written hostOps0_2
    _ = (StableHlo.after hostOps0 W) (Proc.devRef .tc main_arg4) := by not_written hostOps0_1
    _ = W (Proc.devRef .tc main_arg4) := by not_written hostOps0
theorem g03_keep_arg5 : (StableHlo.after hostOps0_2 (StableHlo.after hostOps0_1 (StableHlo.after hostOps0 W))) (Proc.devRef .tc main_arg5) = W (Proc.devRef .tc main_arg5) :=
  calc (StableHlo.after hostOps0_2 (StableHlo.after hostOps0_1 (StableHlo.after hostOps0 W))) (Proc.devRef .tc main_arg5)
    _ = (StableHlo.after hostOps0_1 (StableHlo.after hostOps0 W)) (Proc.devRef .tc main_arg5) := by not_written hostOps0_2
    _ = (StableHlo.after hostOps0 W) (Proc.devRef .tc main_arg5) := by not_written hostOps0_1
    _ = W (Proc.devRef .tc main_arg5) := by not_written hostOps0
theorem g03_keep_arg6 : (StableHlo.after hostOps0_2 (StableHlo.after hostOps0_1 (StableHlo.after hostOps0 W))) (Proc.devRef .tc main_arg6) = W (Proc.devRef .tc main_arg6) :=
  calc (StableHlo.after hostOps0_2 (StableHlo.after hostOps0_1 (StableHlo.after hostOps0 W))) (Proc.devRef .tc main_arg6)
    _ = (StableHlo.after hostOps0_1 (StableHlo.after hostOps0 W)) (Proc.devRef .tc main_arg6) := by not_written hostOps0_2
    _ = (StableHlo.after hostOps0 W) (Proc.devRef .tc main_arg6) := by not_written hostOps0_1
    _ = W (Proc.devRef .tc main_arg6) := by not_written hostOps0
theorem g03_keep_arg7 : (StableHlo.after hostOps0_2 (StableHlo.after hostOps0_1 (StableHlo.after hostOps0 W))) (Proc.devRef .tc main_arg7) = W (Proc.devRef .tc main_arg7) :=
  calc (StableHlo.after hostOps0_2 (StableHlo.after hostOps0_1 (StableHlo.after hostOps0 W))) (Proc.devRef .tc main_arg7)
    _ = (StableHlo.after hostOps0_1 (StableHlo.after hostOps0 W)) (Proc.devRef .tc main_arg7) := by not_written hostOps0_2
    _ = (StableHlo.after hostOps0 W) (Proc.devRef .tc main_arg7) := by not_written hostOps0_1
    _ = W (Proc.devRef .tc main_arg7) := by not_written hostOps0
theorem g03_keep_arg8 : (StableHlo.after hostOps0_2 (StableHlo.after hostOps0_1 (StableHlo.after hostOps0 W))) (Proc.devRef .tc main_arg8) = W (Proc.devRef .tc main_arg8) :=
  calc (StableHlo.after hostOps0_2 (StableHlo.after hostOps0_1 (StableHlo.after hostOps0 W))) (Proc.devRef .tc main_arg8)
    _ = (StableHlo.after hostOps0_1 (StableHlo.after hostOps0 W)) (Proc.devRef .tc main_arg8) := by not_written hostOps0_2
    _ = (StableHlo.after hostOps0 W) (Proc.devRef .tc main_arg8) := by not_written hostOps0_1
    _ = W (Proc.devRef .tc main_arg8) := by not_written hostOps0
theorem g03_keep_arg9 : (StableHlo.after hostOps0_2 (StableHlo.after hostOps0_1 (StableHlo.after hostOps0 W))) (Proc.devRef .tc main_arg9) = W (Proc.devRef .tc main_arg9) :=
  calc (StableHlo.after hostOps0_2 (StableHlo.after hostOps0_1 (StableHlo.after hostOps0 W))) (Proc.devRef .tc main_arg9)
    _ = (StableHlo.after hostOps0_1 (StableHlo.after hostOps0 W)) (Proc.devRef .tc main_arg9) := by not_written hostOps0_2
    _ = (StableHlo.after hostOps0 W) (Proc.devRef .tc main_arg9) := by not_written hostOps0_1
    _ = W (Proc.devRef .tc main_arg9) := by not_written hostOps0
theorem g03_keep_arg10 : (StableHlo.after hostOps0_2 (StableHlo.after hostOps0_1 (StableHlo.after hostOps0 W))) (Proc.devRef .tc main_arg10) = W (Proc.devRef .tc main_arg10) :=
  calc (StableHlo.after hostOps0_2 (StableHlo.after hostOps0_1 (StableHlo.after hostOps0 W))) (Proc.devRef .tc main_arg10)
    _ = (StableHlo.after hostOps0_1 (StableHlo.after hostOps0 W)) (Proc.devRef .tc main_arg10) := by not_written hostOps0_2
    _ = (StableHlo.after hostOps0 W) (Proc.devRef .tc main_arg10) := by not_written hostOps0_1
    _ = W (Proc.devRef .tc main_arg10) := by not_written hostOps0
theorem g03_keep_arg11 : (StableHlo.after hostOps0_2 (StableHlo.after hostOps0_1 (StableHlo.after hostOps0 W))) (Proc.devRef .tc main_arg11) = W (Proc.devRef .tc main_arg11) :=
  calc (StableHlo.after hostOps0_2 (StableHlo.after hostOps0_1 (StableHlo.after hostOps0 W))) (Proc.devRef .tc main_arg11)
    _ = (StableHlo.after hostOps0_1 (StableHlo.after hostOps0 W)) (Proc.devRef .tc main_arg11) := by not_written hostOps0_2
    _ = (StableHlo.after hostOps0 W) (Proc.devRef .tc main_arg11) := by not_written hostOps0_1
    _ = W (Proc.devRef .tc main_arg11) := by not_written hostOps0
theorem g03_keep_arg12 : (StableHlo.after hostOps0_2 (StableHlo.after hostOps0_1 (StableHlo.after hostOps0 W))) (Proc.devRef .tc main_arg12) = W (Proc.devRef .tc main_arg12) :=
  calc (StableHlo.after hostOps0_2 (StableHlo.after hostOps0_1 (StableHlo.after hostOps0 W))) (Proc.devRef .tc main_arg12)
    _ = (StableHlo.after hostOps0_1 (StableHlo.after hostOps0 W)) (Proc.devRef .tc main_arg12) := by not_written hostOps0_2
    _ = (StableHlo.after hostOps0 W) (Proc.devRef .tc main_arg12) := by not_written hostOps0_1
    _ = W (Proc.devRef .tc main_arg12) := by not_written hostOps0
theorem g03_keep_arg13 : (StableHlo.after hostOps0_2 (StableHlo.after hostOps0_1 (StableHlo.after hostOps0 W))) (Proc.devRef .tc main_arg13) = W (Proc.devRef .tc main_arg13) :=
  calc (StableHlo.after hostOps0_2 (StableHlo.after hostOps0_1 (StableHlo.after hostOps0 W))) (Proc.devRef .tc main_arg13)
    _ = (StableHlo.after hostOps0_1 (StableHlo.after hostOps0 W)) (Proc.devRef .tc main_arg13) := by not_written hostOps0_2
    _ = (StableHlo.after hostOps0 W) (Proc.devRef .tc main_arg13) := by not_written hostOps0_1
    _ = W (Proc.devRef .tc main_arg13) := by not_written hostOps0
theorem g03_keep_arg14 : (StableHlo.after hostOps0_2 (StableHlo.after hostOps0_1 (StableHlo.after hostOps0 W))) (Proc.devRef .tc main_arg14) = W (Proc.devRef .tc main_arg14) :=
  calc (StableHlo.after hostOps0_2 (StableHlo.after hostOps0_1 (StableHlo.after hostOps0 W))) (Proc.devRef .tc main_arg14)
    _ = (StableHlo.after hostOps0_1 (StableHlo.after hostOps0 W)) (Proc.devRef .tc main_arg14) := by not_written hostOps0_2
    _ = (StableHlo.after hostOps0 W) (Proc.devRef .tc main_arg14) := by not_written hostOps0_1
    _ = W (Proc.devRef .tc main_arg14) := by not_written hostOps0
theorem g03_keep_arg15 : (StableHlo.after hostOps0_2 (StableHlo.after hostOps0_1 (StableHlo.after hostOps0 W))) (Proc.devRef .tc main_arg15) = W (Proc.devRef .tc main_arg15) :=
  calc (StableHlo.after hostOps0_2 (StableHlo.after hostOps0_1 (StableHlo.after hostOps0 W))) (Proc.devRef .tc main_arg15)
    _ = (StableHlo.after hostOps0_1 (StableHlo.after hostOps0 W)) (Proc.devRef .tc main_arg15) := by not_written hostOps0_2
    _ = (StableHlo.after hostOps0 W) (Proc.devRef .tc main_arg15) := by not_written hostOps0_1
    _ = W (Proc.devRef .tc main_arg15) := by not_written hostOps0
attribute [local irreducible] Host.gather Host.scatterAdd Host.rsqrt Host.expm1 Host.divf in
set_option maxRecDepth 8192 in
set_option maxHeartbeats 1000000 in
theorem g1_agg : (StableHlo.after hostOps1 W (Proc.devRef .tc main_v42) : FVec F S100000x64 .f32) = aggT (F := F) (W (Proc.devRef .tc main_v1)) (W (Proc.devRef .tc main_v3)) (W (Proc.devRef .tc main_v28)) (W (Proc.devRef .tc main_v29)) := by
  dsimp only [hostOps1]
  after_results_simp
  try rfl
attribute [local irreducible] Host.gather Host.scatterAdd Host.rsqrt Host.expm1 Host.divf in
set_option maxRecDepth 8192 in
set_option maxHeartbeats 1000000 in
theorem g1_p43 : (StableHlo.after hostOps1 W (Proc.devRef .tc main_v43) : FVec F S1x64 .f32) = shapeCast S1x64 (W (Proc.devRef .tc main_arg7)) shapeCasts_S64_S1x64 := by
  dsimp only [hostOps1]
  after_results_simp
  try rfl
attribute [local irreducible] Host.gather Host.scatterAdd Host.rsqrt Host.expm1 Host.divf in
set_option maxRecDepth 8192 in
set_option maxHeartbeats 1000000 in
theorem g1_p44 : (StableHlo.after hostOps1 W (Proc.devRef .tc main_v44) : FVec F S1x64 .f32) = shapeCast S1x64 (W (Proc.devRef .tc main_arg8)) shapeCasts_S64_S1x64 := by
  dsimp only [hostOps1]
  after_results_simp
  try rfl
attribute [local irreducible] Host.gather Host.scatterAdd Host.rsqrt Host.expm1 Host.divf in
set_option maxRecDepth 8192 in
set_option maxHeartbeats 1000000 in
theorem g1_p45 : (StableHlo.after hostOps1 W (Proc.devRef .tc main_v45) : FVec F S1x64 .f32) = shapeCast S1x64 (W (Proc.devRef .tc main_arg5)) shapeCasts_S64_S1x64 := by
  dsimp only [hostOps1]
  after_results_simp
  try rfl
attribute [local irreducible] Host.gather Host.scatterAdd Host.rsqrt Host.expm1 Host.divf in
set_option maxRecDepth 8192 in
set_option maxHeartbeats 1000000 in
theorem g1_p46 : (StableHlo.after hostOps1 W (Proc.devRef .tc main_v46) : FVec F S1x64 .f32) = shapeCast S1x64 (W (Proc.devRef .tc main_arg6)) shapeCasts_S64_S1x64 := by
  dsimp only [hostOps1]
  after_results_simp
  try rfl
theorem g1_keep_v1 : (StableHlo.after hostOps1 W) (Proc.devRef .tc main_v1) = W (Proc.devRef .tc main_v1) :=
  calc (StableHlo.after hostOps1 W) (Proc.devRef .tc main_v1)
    _ = W (Proc.devRef .tc main_v1) := by not_written hostOps1
theorem g1_keep_v3 : (StableHlo.after hostOps1 W) (Proc.devRef .tc main_v3) = W (Proc.devRef .tc main_v3) :=
  calc (StableHlo.after hostOps1 W) (Proc.devRef .tc main_v3)
    _ = W (Proc.devRef .tc main_v3) := by not_written hostOps1
theorem g1_keep_v28 : (StableHlo.after hostOps1 W) (Proc.devRef .tc main_v28) = W (Proc.devRef .tc main_v28) :=
  calc (StableHlo.after hostOps1 W) (Proc.devRef .tc main_v28)
    _ = W (Proc.devRef .tc main_v28) := by not_written hostOps1
theorem g1_keep_arg3 : (StableHlo.after hostOps1 W) (Proc.devRef .tc main_arg3) = W (Proc.devRef .tc main_arg3) :=
  calc (StableHlo.after hostOps1 W) (Proc.devRef .tc main_arg3)
    _ = W (Proc.devRef .tc main_arg3) := by not_written hostOps1
theorem g1_keep_arg9 : (StableHlo.after hostOps1 W) (Proc.devRef .tc main_arg9) = W (Proc.devRef .tc main_arg9) :=
  calc (StableHlo.after hostOps1 W) (Proc.devRef .tc main_arg9)
    _ = W (Proc.devRef .tc main_arg9) := by not_written hostOps1
theorem g1_keep_arg10 : (StableHlo.after hostOps1 W) (Proc.devRef .tc main_arg10) = W (Proc.devRef .tc main_arg10) :=
  calc (StableHlo.after hostOps1 W) (Proc.devRef .tc main_arg10)
    _ = W (Proc.devRef .tc main_arg10) := by not_written hostOps1
theorem g1_keep_arg11 : (StableHlo.after hostOps1 W) (Proc.devRef .tc main_arg11) = W (Proc.devRef .tc main_arg11) :=
  calc (StableHlo.after hostOps1 W) (Proc.devRef .tc main_arg11)
    _ = W (Proc.devRef .tc main_arg11) := by not_written hostOps1
theorem g1_keep_arg12 : (StableHlo.after hostOps1 W) (Proc.devRef .tc main_arg12) = W (Proc.devRef .tc main_arg12) :=
  calc (StableHlo.after hostOps1 W) (Proc.devRef .tc main_arg12)
    _ = W (Proc.devRef .tc main_arg12) := by not_written hostOps1
theorem g1_keep_arg13 : (StableHlo.after hostOps1 W) (Proc.devRef .tc main_arg13) = W (Proc.devRef .tc main_arg13) :=
  calc (StableHlo.after hostOps1 W) (Proc.devRef .tc main_arg13)
    _ = W (Proc.devRef .tc main_arg13) := by not_written hostOps1
theorem g1_keep_arg14 : (StableHlo.after hostOps1 W) (Proc.devRef .tc main_arg14) = W (Proc.devRef .tc main_arg14) :=
  calc (StableHlo.after hostOps1 W) (Proc.devRef .tc main_arg14)
    _ = W (Proc.devRef .tc main_arg14) := by not_written hostOps1
theorem g1_keep_arg15 : (StableHlo.after hostOps1 W) (Proc.devRef .tc main_arg15) = W (Proc.devRef .tc main_arg15) :=
  calc (StableHlo.after hostOps1 W) (Proc.devRef .tc main_arg15)
    _ = W (Proc.devRef .tc main_arg15) := by not_written hostOps1
attribute [local irreducible] Host.gather Host.scatterAdd Host.rsqrt Host.expm1 Host.divf in
set_option maxRecDepth 8192 in
set_option maxHeartbeats 1000000 in
theorem g3_agg : (StableHlo.after hostOps3 W (Proc.devRef .tc main_v61) : FVec F S100000x64 .f32) = aggT (F := F) (W (Proc.devRef .tc main_v1)) (W (Proc.devRef .tc main_v3)) (W (Proc.devRef .tc main_v28)) (W (Proc.devRef .tc main_v48)) := by
  dsimp only [hostOps3]
  after_results_simp
  try rfl
attribute [local irreducible] Host.gather Host.scatterAdd Host.rsqrt Host.expm1 Host.divf in
set_option maxRecDepth 8192 in
set_option maxHeartbeats 1000000 in
theorem g3_p62 : (StableHlo.after hostOps3 W (Proc.devRef .tc main_v62) : FVec F S1x64 .f32) = shapeCast S1x64 (W (Proc.devRef .tc main_arg12)) shapeCasts_S64_S1x64 := by
  dsimp only [hostOps3]
  after_results_simp
  try rfl
attribute [local irreducible] Host.gather Host.scatterAdd Host.rsqrt Host.expm1 Host.divf in
set_option maxRecDepth 8192 in
set_option maxHeartbeats 1000000 in
theorem g3_p63 : (StableHlo.after hostOps3 W (Proc.devRef .tc main_v63) : FVec F S1x64 .f32) = shapeCast S1x64 (W (Proc.devRef .tc main_arg13)) shapeCasts_S64_S1x64 := by
  dsimp only [hostOps3]
  after_results_simp
  try rfl
attribute [local irreducible] Host.gather Host.scatterAdd Host.rsqrt Host.expm1 Host.divf in
set_option maxRecDepth 8192 in
set_option maxHeartbeats 1000000 in
theorem g3_p64 : (StableHlo.after hostOps3 W (Proc.devRef .tc main_v64) : FVec F S1x64 .f32) = shapeCast S1x64 (W (Proc.devRef .tc main_arg10)) shapeCasts_S64_S1x64 := by
  dsimp only [hostOps3]
  after_results_simp
  try rfl
attribute [local irreducible] Host.gather Host.scatterAdd Host.rsqrt Host.expm1 Host.divf in
set_option maxRecDepth 8192 in
set_option maxHeartbeats 1000000 in
theorem g3_p65 : (StableHlo.after hostOps3 W (Proc.devRef .tc main_v65) : FVec F S1x64 .f32) = shapeCast S1x64 (W (Proc.devRef .tc main_arg11)) shapeCasts_S64_S1x64 := by
  dsimp only [hostOps3]
  after_results_simp
  try rfl
theorem g3_keep_arg3 : (StableHlo.after hostOps3 W) (Proc.devRef .tc main_arg3) = W (Proc.devRef .tc main_arg3) :=
  calc (StableHlo.after hostOps3 W) (Proc.devRef .tc main_arg3)
    _ = W (Proc.devRef .tc main_arg3) := by not_written hostOps3
theorem g3_keep_arg14 : (StableHlo.after hostOps3 W) (Proc.devRef .tc main_arg14) = W (Proc.devRef .tc main_arg14) :=
  calc (StableHlo.after hostOps3 W) (Proc.devRef .tc main_arg14)
    _ = W (Proc.devRef .tc main_arg14) := by not_written hostOps3
theorem g3_keep_arg15 : (StableHlo.after hostOps3 W) (Proc.devRef .tc main_arg15) = W (Proc.devRef .tc main_arg15) :=
  calc (StableHlo.after hostOps3 W) (Proc.devRef .tc main_arg15)
    _ = W (Proc.devRef .tc main_arg15) := by not_written hostOps3
attribute [local irreducible] Host.gather Host.scatterAdd Host.rsqrt Host.expm1 Host.divf in
set_option maxRecDepth 8192 in
set_option maxHeartbeats 1000000 in
theorem g4_sums : (StableHlo.after hostOps4 W (Proc.devRef .tc main_v69) : FVec F S1024x64 .f32) = sumsT (F := F) (W (Proc.devRef .tc main_arg3)) (W (Proc.devRef .tc main_v66)) := by
  dsimp only [hostOps4]
  after_results_simp
  try rfl
attribute [local irreducible] Host.gather Host.scatterAdd Host.rsqrt Host.expm1 Host.divf in
set_option maxRecDepth 8192 in
set_option maxHeartbeats 1000000 in
theorem g4_cnt : (StableHlo.after hostOps4 W (Proc.devRef .tc main_v74) : FVec F S1024x1 .f32) = shapeCast S1024x1 (cntT (F := F) (W (Proc.devRef .tc main_arg3))) shapeCasts_S1024_S1024x1 := by
  dsimp only [hostOps4]
  after_results_simp
  try rfl
attribute [local irreducible] Host.gather Host.scatterAdd Host.rsqrt Host.expm1 Host.divf in
set_option maxRecDepth 8192 in
set_option maxHeartbeats 1000000 in
theorem g4_lnb : (StableHlo.after hostOps4 W (Proc.devRef .tc main_v75) : FVec F S1x4 .f32) = shapeCast S1x4 (W (Proc.devRef .tc main_arg15)) shapeCasts_S4_S1x4 := by
  dsimp only [hostOps4]
  after_results_simp
  try rfl
theorem g4_keep_arg14 : (StableHlo.after hostOps4 W) (Proc.devRef .tc main_arg14) = W (Proc.devRef .tc main_arg14) :=
  calc (StableHlo.after hostOps4 W) (Proc.devRef .tc main_arg14)
    _ = W (Proc.devRef .tc main_arg14) := by not_written hostOps4

end Cert.KernelIdeal.Hand

end
-- ==== Proof.RegionLin.lean ====
/-
  The two dense-projection regions. Each runs over ten points; point t stages rows 10000 t … 10000 t + 9999 of the
  node features x and the whole weight matrix w, and leaves the product of that block of rows with the transpose of w in
  the same rows of the output. At the ideal values the product into a zero accumulator is the plain sum over the
  contracted coordinate, so entry (p, o) of the block is ∑ k, x (10000 t + p, k) · w (o, k): the block of the dense
  projection x · wᵀ that the point's rectangle names. The ten blocks tile the output array, which therefore ends holding
  the whole projection.
-/
import proofs.«171306_j22711787061812_1_alg».proof.Proof.Gen.KernelIdeal.Frame
import proofs.«171306_j22711787061812_1_alg».proof.Proof.Gen.ReferenceIdeal
import proofs.«171306_j22711787061812_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The product at an index -/

/-- The zero offsets of a rank-2 rectangle, as a constant function. -/
theorem hz : (![0, 0] : Fin 2 → Nat) = fun _ => 0 := funext fun a => by fin_cases a <;> rfl

/-- An m×k matrix times the transpose of an n×k matrix, read at (a, b): the sum over the contracted coordinate of the
    products of the entries of row a of the first and row b of the second. At the ideal values. -/
theorem dot_transpose_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![n, k]⟩ φ₂)
    (hB : (⟨2, ![n, k]⟩ : Shape).Transposes [1, 0] ⟨2, ![k, n]⟩) (a : Fin m) (b : Fin n) :
    Host.dotGeneral d none A (transpose ⟨2, ![k, n]⟩ [1, 0] B hB) (ix2 a b) = ∑ c : Fin k, A (ix2 a c) * B (ix2 b c) := by
  subst hd
  rw [StackMember.dotGeneral_plain_apply]
  refine Finset.sum_congr rfl fun c _ => ?_
  rw [transpose_ix2_apply]

/-- The dense projection at (r, o): row r of x against row o of w. -/
theorem linT_apply (x : FVec Ideal Cert.ReferenceIdeal.S100000x64 .f32) (w : FVec Ideal Cert.ReferenceIdeal.S64x64 .f32)
    (r : Fin 100000) (o : Fin 64) :
    Cert.Spec.linT (F := Ideal) x w (ix2 r o) = ∑ k : Fin 64, x (ix2 r k) * w (ix2 o k) := by
  unfold Cert.Spec.linT
  exact dot_transpose_apply _ rfl _ _ _ r o

/-- The first projection's payload at (p, o): row p of the block of x against row o of the weight. The narrowing of the
    two operands is the identity on the ideal values. -/
theorem pay0_apply (x0 : Vec Ideal S10000x64 .f32) (x1 : Vec Ideal S64x64 .f32) (p : Fin 10000) (o : Fin 64) :
    k0_pay1 x0 x1 (ix2 p o) = ∑ k : Fin 64, x0 (ix2 p k) * x1 (ix2 o k) := by
  unfold k0_pay1
  dsimp only
  rw [matmul_zero_eq_dotGeneral]
  exact dot_transpose_apply _ rfl _ _ _ p o

/-- The second projection's payload at (p, o): the same sum; its block of x passes through a cast to its own shape. -/
theorem pay2_apply (x0 : Vec Ideal S10000x64 .f32) (x1 : Vec Ideal S64x64 .f32) (p : Fin 10000) (o : Fin 64) :
    k2_pay1 x0 x1 (ix2 p o) = ∑ k : Fin 64, x0 (ix2 p k) * x1 (ix2 o k) := by
  unfold k2_pay1
  dsimp only
  rw [shapeCast_self, matmul_zero_eq_dotGeneral]
  exact dot_transpose_apply _ rfl _ _ _ p o

/-- One entry of a block of the first product: where row p of the first block is row r of the array and the second
    block is the weight, the payload at (p, q) is the projection at (r, q). -/
theorem block0_eq (x0 : Vec Ideal S10000x64 .f32) (x1 : Vec Ideal S64x64 .f32)
    (X : FVec Ideal S100000x64 .f32) (W : FVec Ideal S64x64 .f32) (j : S10000x64.Idx) (i : S100000x64.Idx)
    (p : Fin 10000) (r : Fin 100000) (q : Fin 64) (hj : j = ix2 p q) (hi : i = ix2 r q)
    (h0 : ∀ k : Fin 64, x0 (ix2 p k) = X (ix2 r k)) (h1 : ∀ o k : Fin 64, x1 (ix2 o k) = W (ix2 o k)) :
    k0_pay1 x0 x1 j = Cert.Spec.linT (F := Ideal) X W i := by
  subst hj hi
  rw [pay0_apply, linT_apply]
  exact Finset.sum_congr rfl fun k _ => by rw [h0, h1]

/-- The same for the second product. -/
theorem block2_eq (x0 : Vec Ideal S10000x64 .f32) (x1 : Vec Ideal S64x64 .f32)
    (X : FVec Ideal S100000x64 .f32) (W : FVec Ideal S64x64 .f32) (j : S10000x64.Idx) (i : S100000x64.Idx)
    (p : Fin 10000) (r : Fin 100000) (q : Fin 64) (hj : j = ix2 p q) (hi : i = ix2 r q)
    (h0 : ∀ k : Fin 64, x0 (ix2 p k) = X (ix2 r k)) (h1 : ∀ o k : Fin 64, x1 (ix2 o k) = W (ix2 o k)) :
    k2_pay1 x0 x1 j = Cert.Spec.linT (F := Ideal) X W i := by
  subst hj hi
  rw [pay2_apply, linT_apply]
  exact Finset.sum_congr rfl fun k _ => by rw [h0, h1]

variable (V : (c : Dev nD) → (b : Ref sig .tc) → Buf (Elt Ideal) ((c : Thread nD τ).loc b))

/-! ## The first projection -/

/-- The index maps of the region, decided over its ten points: the block of x and the output block move together down
    the rows, the weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense projection of the two input arrays. -/
theorem flushed0_eq (c : Dev nD) (t : Fin cfg0.N) :
    (Gen.dat0 (F := Ideal) V c).flushed 2 t
      = ((cfg0.win 2).blk t).view.read (Elt Ideal) (Cert.Spec.linT (F := Ideal) (V c main_arg0) (V c main_arg4)) := by
  show (cfg0.win 2).cut (grid0.coords t) ((Gen.dat0 V c).after 2 t) = _
  rw [Gen.after0_2]
  unfold Gen.out0_2
  rw [View.canon_unit_zero hz]
  simp only [View.ld_unit_zero (S := S10000x64) hz, View.ld_unit_zero (S := S64x64) hz]
  obtain ⟨e0, e1, e2, e3, e4, e5⟩ := idx_facts0 t
  have ht : t.val < 10 := lt_of_lt_of_eq t.isLt (N_0 : cfg0.N = 10)
  funext j
  have hj0 : (j 0).val < 10000 := (j 0).isLt
  have hj1 : (j 1).val < 64 := (j 1).isLt
  show k0_pay1 (iblk0 V c 0 t) (iblk0 V c 1 t) ((cfg0.win 2).xinj (grid0.coords t) j)
    = Cert.Spec.linT (F := Ideal) (V c main_arg0) (V c main_arg4) (((cfg0.win 2).blk t).view.emb j)
  refine block0_eq _ _ _ _ _ _ ⟨(j 0).val, hj0⟩ ⟨t.val * 10000 + (j 0).val, by omega⟩ ⟨(j 1).val, hj1⟩ ?_ ?_
    (fun k => ?_) (fun o k => ?_)
  · funext a
    match a with
    | ⟨0, _⟩ => rfl
    | ⟨1, _⟩ => rfl
  · funext a; apply Fin.ext
    match a with
    | ⟨0, _⟩ => show win0_2.index t (0 : Fin 2) * 10000 + 1 * (j 0).val = t.val * 10000 + (j 0).val; rw [e4]; omega
    | ⟨1, _⟩ => show win0_2.index t (1 : Fin 2) * 64 + 1 * (j 1).val = (j 1).val; rw [e5]; omega
  · show V c main_arg0 (((cfg0.win 0).blk t).view.emb _) = _
    congr 1
    funext a; apply Fin.ext
    match a with
    | ⟨0, _⟩ => show win0_0.index t (0 : Fin 2) * 10000 + 1 * (j 0).val = t.val * 10000 + (j 0).val; rw [e0]; omega
    | ⟨1, _⟩ => show win0_0.index t (1 : Fin 2) * 64 + 1 * k.val = k.val; rw [e1]; omega
  · show V c main_arg4 (((cfg0.win 1).blk t).view.emb _) = _
    congr 1
    funext a; apply Fin.ext
    match a with
    | ⟨0, _⟩ => show win0_1.index t (0 : Fin 2) * 64 + 1 * o.val = o.val; rw [e2]; omega
    | ⟨1, _⟩ => show win0_1.index t (1 : Fin 2) * 64 + 1 * k.val = k.val; rw [e3]; omega

/-- An index of the array is in point t's output block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v29).slice (win0_2.rect t)).set ↔ _
  rw [View.set_slice_whole, Rect.mem_set_unit]
  exact Iff.rfl

/-- Every index of the output array lies in some point's block: row r in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 10) (N_0 : cfg0.N = 10).symm⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- The region leaves the dense projection of its two input arrays in its output array. -/
theorem lin0 (c : Dev nD) :
    (Gen.dat0 (F := Ideal) V c).arrAt 2 cfg0.N = Cert.Spec.linT (F := Ideal) (V c main_arg0) (V c main_arg4) :=
  (Gen.dat0 V c).arrAt_eq_of_cover 2 _ (fun t _ => flushed0_eq V c t) cover0

/-! ## The second projection -/

/-- The index maps of the region, decided over its ten points: the block of x and the output block move together down
    the rows, the weight block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense projection of the two input arrays. -/
theorem flushed2_eq (c : Dev nD) (t : Fin cfg2.N) :
    (Gen.dat2 (F := Ideal) V c).flushed 2 t
      = ((cfg2.win 2).blk t).view.read (Elt Ideal) (Cert.Spec.linT (F := Ideal) (V c main_v47) (V c main_arg9)) := by
  show (cfg2.win 2).cut (grid2.coords t) ((Gen.dat2 V c).after 2 t) = _
  rw [Gen.after2_2]
  unfold Gen.out2_2
  rw [View.canon_unit_zero hz]
  simp only [View.ld_unit_zero (S := S10000x64) hz, View.ld_unit_zero (S := S64x64) hz]
  obtain ⟨e0, e1, e2, e3, e4, e5⟩ := idx_facts2 t
  have ht : t.val < 10 := lt_of_lt_of_eq t.isLt (N_2 : cfg2.N = 10)
  funext j
  have hj0 : (j 0).val < 10000 := (j 0).isLt
  have hj1 : (j 1).val < 64 := (j 1).isLt
  show k2_pay1 (iblk2 V c 0 t) (iblk2 V c 1 t) ((cfg2.win 2).xinj (grid2.coords t) j)
    = Cert.Spec.linT (F := Ideal) (V c main_v47) (V c main_arg9) (((cfg2.win 2).blk t).view.emb j)
  refine block2_eq _ _ _ _ _ _ ⟨(j 0).val, hj0⟩ ⟨t.val * 10000 + (j 0).val, by omega⟩ ⟨(j 1).val, hj1⟩ ?_ ?_
    (fun k => ?_) (fun o k => ?_)
  · funext a
    match a with
    | ⟨0, _⟩ => rfl
    | ⟨1, _⟩ => rfl
  · funext a; apply Fin.ext
    match a with
    | ⟨0, _⟩ => show win2_2.index t (0 : Fin 2) * 10000 + 1 * (j 0).val = t.val * 10000 + (j 0).val; rw [e4]; omega
    | ⟨1, _⟩ => show win2_2.index t (1 : Fin 2) * 64 + 1 * (j 1).val = (j 1).val; rw [e5]; omega
  · show V c main_v47 (((cfg2.win 0).blk t).view.emb _) = _
    congr 1
    funext a; apply Fin.ext
    match a with
    | ⟨0, _⟩ => show win2_0.index t (0 : Fin 2) * 10000 + 1 * (j 0).val = t.val * 10000 + (j 0).val; rw [e0]; omega
    | ⟨1, _⟩ => show win2_0.index t (1 : Fin 2) * 64 + 1 * k.val = k.val; rw [e1]; omega
  · show V c main_arg9 (((cfg2.win 1).blk t).view.emb _) = _
    congr 1
    funext a; apply Fin.ext
    match a with
    | ⟨0, _⟩ => show win2_1.index t (0 : Fin 2) * 64 + 1 * o.val = o.val; rw [e2]; omega
    | ⟨1, _⟩ => show win2_1.index t (1 : Fin 2) * 64 + 1 * k.val = k.val; rw [e3]; omega

/-- An index of the array is in point t's output block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Every index of the output array lies in some point's block: row r in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 10) (N_2 : cfg2.N = 10).symm⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 64 ≤ (i 1).val ∧ (i 1).val < win2_2.index t (1 : Fin 2) * 64 + 64
    rw [e5]; omega

/-- The region leaves the dense projection of its two input arrays in its output array. -/
theorem lin2 (c : Dev nD) :
    (Gen.dat2 (F := Ideal) V c).arrAt 2 cfg2.N = Cert.Spec.linT (F := Ideal) (V c main_v47) (V c main_arg9) :=
  (Gen.dat2 V c).arrAt_eq_of_cover 2 _ (fun t _ => flushed2_eq V c t) cover2

end Cert.KernelIdeal.Hand

end
-- ==== Proof.RegionBnElu.lean ====
/-
  The two batch-normalisation + ELU regions. Each runs over ten points; point t reads rows 10000 t … 10000 t + 9999 of
  a [100000, 64] array a and four [1, 64] rows that hold the per-feature vectors mean, variance, γ, β, and writes the
  same rows of the output: v := ((a − mean) · rsqrt (variance + ε)) · γ + β, then v where v > 0 and exp v − 1 elsewhere.
  Shown here: after the region the whole output array is the reference's function of the same arrays, which spells
  ELU as v where v > 0 and 1 · expm1 (v masked to 0 where v > 0) elsewhere. The steps: the two spellings of ELU agree
  on every extended real; the body's value at a block coordinate (p, j) and the reference's value at an array index
  (r, j) are one scalar function of the entry and of the four vectors at j; the block of point t sits at rows
  10000 t + p, so what point t writes back is block t of the reference's array; the ten blocks cover the array.
-/
import proofs.«171306_j22711787061812_1_alg».proof.Proof.Gen.KernelIdeal.Frame
import proofs.«171306_j22711787061812_1_alg».proof.Proof.Gen.ReferenceIdeal
import proofs.«171306_j22711787061812_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Hand

namespace BnElu

/-- The literal word 0x3F800000 denotes the real 1. -/
theorem ofBits_one : Ideal.ofBits .f32 0x3F800000#32 = 1 := by
  simp [Ideal.ofBits, Ideal.ieee, -EReal.coe_mul]; norm_num

/-- Inference-mode batch normalisation of one entry: ((a − mean) · rsqrt (var + ε)) · γ + β. -/
def bnS (a rm rv g b : EReal) : EReal :=
  (a - rm) * Ideal.rsqrt (rv + Ideal.ofBits .f32 0x3727C5AC#32) * g + b

/-- ELU of one entry as the kernel spells it: v where v > 0, otherwise exp v − 1. -/
def eluK (v : EReal) : EReal :=
  Scalar.select (Ideal.cmp .ogt v (Ideal.ofBits .f32 0x00000000#32)) v (Ideal.exp v - Ideal.ofBits .f32 0x3F800000#32)

/-- ELU of one entry as the reference spells it: v where v > 0, otherwise 1 · expm1 (v masked to 0 where v > 0). -/
def eluR (v : EReal) : EReal :=
  Scalar.select (Ideal.cmp .ogt v (Ideal.ofBits .f32 0x00000000#32)) v
    (Ideal.ofBits .f32 0x3F800000#32 *
      (Ideal.exp (Scalar.select (Ideal.cmp .ogt v (Ideal.ofBits .f32 0x00000000#32)) (Ideal.ofBits .f32 0x00000000#32) v) - 1))

/-- The two spellings agree: where v > 0 both are v; elsewhere the mask leaves v and 1 · (exp v − 1) = exp v − 1. -/
theorem eluK_eq_eluR (v : EReal) : eluK v = eluR v := by
  unfold eluK eluR
  by_cases h : Ideal.cmp .ogt v (Ideal.ofBits .f32 0x00000000#32) = 1#1
  · rw [h, select_one, select_one]
  · rw [eq_zero_of_ne_one h]
    simp only [select_zero]
    rw [ofBits_one, one_mul]

/-- The exponential of a vector, at an index. -/
theorem exp_apply {s : Shape} {φ : FTy} (a : FVec Ideal s φ) (i : s.Idx) : exp a i = Ideal.exp (a i) := rfl
/-- The reciprocal square root of a vector, at an index. -/
theorem rsqrt_apply {s : Shape} {φ : FTy} (a : FVec Ideal s φ) (i : s.Idx) : rsqrt a i = Ideal.rsqrt (a i) := rfl

/-- The body's payload at block coordinate (p, j): the batch normalisation of the block's entry by the four rows'
    entries at j, then ELU. -/
theorem pay_apply (x0 : Vec Ideal S10000x64 .f32) (p1 p2 p3 p4 : Vec Ideal S1x64 .f32) (p : Fin 10000) (j : Fin 64) :
    Gen.k1_pay1 x0 p1 p2 p3 p4 (ix2 p j)
      = eluK (bnS (x0 (ix2 p j)) (p1 (ix2 (0 : Fin 1) j)) (p2 (ix2 (0 : Fin 1) j)) (p3 (ix2 (0 : Fin 1) j)) (p4 (ix2 (0 : Fin 1) j))) := by
  unfold Gen.k1_pay1
  simp only [shapeCast_self]
  simp only [select_apply, cmpf_apply, addf_apply, mulf_apply, subf_apply, broadcast_apply, exp_apply, rsqrt_apply,
    broadcastTo_1b_ab_apply]
  rfl

/-- A per-feature vector repeated along the nodes reads, at (r, j), the vector at j. -/
theorem rows_apply (v : FVec Ideal S64 .f32) (r : Fin 100000) (j : Fin 64) :
    Cert.Spec.rows (F := Ideal) v (ix2 r j) = v (ix1 j) := by
  unfold Cert.Spec.rows
  refine (broadcastInDim_apply _ _ _ (ix2 r j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The reference's batch normalisation and ELU at (r, j): of the array's entry and the four vectors' entries at j. -/
theorem bnEluT_apply (a : FVec Ideal S100000x64 .f32) (rm rv g b : FVec Ideal S64 .f32) (r : Fin 100000) (j : Fin 64) :
    Cert.Spec.bnEluT (F := Ideal) a rm rv g b (ix2 r j)
      = eluR (bnS (a (ix2 r j)) (rm (ix1 j)) (rv (ix1 j)) (g (ix1 j)) (b (ix1 j))) := by
  show eluR ((a (ix2 r j) - Cert.Spec.rows (F := Ideal) rm (ix2 r j))
      * Cert.Spec.rows (F := Ideal) (Host.rsqrt (addf rv (broadcastInDim S64 ![] Cert.ReferenceIdeal.Facts₀.bcast_S_S64 (constant S_ .f32 0x3727C5AC#32)))) (ix2 r j)
      * Cert.Spec.rows (F := Ideal) g (ix2 r j) + Cert.Spec.rows (F := Ideal) b (ix2 r j)) = _
  rw [rows_apply, rows_apply, rows_apply, rows_apply]
  rfl

/-- The zero offsets of a whole-buffer rectangle, however spelt. -/
theorem zero_offsets : (![0, 0] : Fin 2 → Nat) = fun _ => 0 := funext fun a => by fin_cases a <;> rfl

/-- One entry of a block. The payload of a block x0 of an array a and of four rows p1 … p4 that hold the vectors
    rm, rv, g, b, read at block coordinate y, is the reference's value at the array index i, when y's entry of the
    block is a's at i and the two have the same column. -/
theorem block_entry (x0 : Vec Ideal S10000x64 .f32) (p1 p2 p3 p4 : Vec Ideal S1x64 .f32)
    (a : FVec Ideal S100000x64 .f32) (rm rv g b : FVec Ideal S64 .f32) (y : S10000x64.Idx) (i : S100000x64.Idx)
    (hx : x0 y = a i) (hj : (i 1).val = (y 1).val)
    (h1 : ∀ j : Fin 64, p1 (ix2 (0 : Fin 1) j) = rm (ix1 j)) (h2 : ∀ j : Fin 64, p2 (ix2 (0 : Fin 1) j) = rv (ix1 j))
    (h3 : ∀ j : Fin 64, p3 (ix2 (0 : Fin 1) j) = g (ix1 j)) (h4 : ∀ j : Fin 64, p4 (ix2 (0 : Fin 1) j) = b (ix1 j)) :
    Gen.k1_pay1 x0 p1 p2 p3 p4 y = Cert.Spec.bnEluT (F := Ideal) a rm rv g b i := by
  obtain ⟨p, j, rfl⟩ : ∃ (p : Fin 10000) (j : Fin 64), y = ix2 p j := ⟨y 0, y 1, eq_ix2 y⟩
  obtain ⟨r, j', rfl⟩ : ∃ (r : Fin 100000) (j' : Fin 64), i = ix2 r j' := ⟨i 0, i 1, eq_ix2 i⟩
  obtain rfl : j' = j := Fin.ext hj
  rw [pay_apply, bnEluT_apply, eluK_eq_eluR, hx, h1, h2, h3, h4]

/-! ## Region 1 -/

/-- The index maps of region 1, decided over its ten points: the input block moves with the output block, whose
    block index is (t, 0); the four rows stay at block (0, 0). -/
theorem idx_facts1 : ∀ t : Fin cfg1.N, win1_0.index t (0 : Fin 2) = win1_5.index t (0 : Fin 2)
    ∧ win1_0.index t (1 : Fin 2) = win1_5.index t (1 : Fin 2)
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the batch-normalised, ELU-activated array: rows 10000 t … 10000 t + 9999. -/
theorem flushed1_eq (V : (c : Dev nD) → (b : Ref sig .tc) → Buf (Elt Ideal) ((c : Thread nD τ).loc b)) (c : Dev nD) (rm rv g b : FVec Ideal S64 .f32)
    (h1 : V c main_v43 = shapeCast S1x64 rm Cert.KernelIdeal.Facts₀.shapeCasts_S64_S1x64) (h2 : V c main_v44 = shapeCast S1x64 rv Cert.KernelIdeal.Facts₀.shapeCasts_S64_S1x64)
    (h3 : V c main_v45 = shapeCast S1x64 g Cert.KernelIdeal.Facts₀.shapeCasts_S64_S1x64) (h4 : V c main_v46 = shapeCast S1x64 b Cert.KernelIdeal.Facts₀.shapeCasts_S64_S1x64)
    (t : Fin cfg1.N) :
    (Gen.dat1 (F := Ideal) V c).flushed 5 t
      = ((cfg1.win 5).blk t).view.read (Elt Ideal) (Cert.Spec.bnEluT (F := Ideal) (V c main_v42) rm rv g b) := by
  show (cfg1.win 5).cut (grid1.coords t) ((Gen.dat1 V c).after 5 t) = _
  rw [Gen.after1_5]
  unfold Gen.out1_5
  rw [View.canon_unit_zero zero_offsets]
  simp only [View.ld_unit_zero (S := S10000x64) zero_offsets, View.ld_unit_zero (S := S1x64) zero_offsets]
  obtain ⟨e0, e1, e2, e3, e4, e5, e6, e7, e8, e9, e10, e11⟩ := idx_facts1 t
  funext y
  show Gen.k1_pay1 (Gen.iblk1 V c 0 t) (Gen.iblk1 V c 1 t) (Gen.iblk1 V c 2 t) (Gen.iblk1 V c 3 t) (Gen.iblk1 V c 4 t) y
    = Cert.Spec.bnEluT (F := Ideal) (V c main_v42) rm rv g b (((cfg1.win 5).blk t).view.emb y)
  refine block_entry _ _ _ _ _ _ _ _ _ _ y _ ?_ ?_ (fun j => ?_) (fun j => ?_) (fun j => ?_) (fun j => ?_)
  · show V c main_v42 (((cfg1.win 0).blk t).view.emb y) = V c main_v42 (((cfg1.win 5).blk t).view.emb y)
    refine congrArg _ (funext fun a => Fin.ext ?_)
    match a with
    | ⟨0, _⟩ => show win1_0.index t (0 : Fin 2) * 10000 + 1 * (y 0).val = win1_5.index t (0 : Fin 2) * 10000 + 1 * (y 0).val; rw [e0]
    | ⟨1, _⟩ => show win1_0.index t (1 : Fin 2) * 64 + 1 * (y 1).val = win1_5.index t (1 : Fin 2) * 64 + 1 * (y 1).val; rw [e1]
  · show win1_5.index t (1 : Fin 2) * 64 + 1 * (y 1).val = (y 1).val
    rw [e3]; omega
  · show V c main_v43 (((cfg1.win 1).blk t).view.emb (ix2 (0 : Fin 1) j)) = _
    rw [h1]
    refine (congrArg _ (?_ : _ = ix2 (0 : Fin 1) j)).trans (shapeCast_a_1a_apply rm _ 0 j)
    funext a; apply Fin.ext
    match a with
    | ⟨0, _⟩ => show win1_1.index t (0 : Fin 2) * 1 + 1 * 0 = 0; rw [e4]
    | ⟨1, _⟩ => show win1_1.index t (1 : Fin 2) * 64 + 1 * j.val = j.val; rw [e5]; omega
  · show V c main_v44 (((cfg1.win 2).blk t).view.emb (ix2 (0 : Fin 1) j)) = _
    rw [h2]
    refine (congrArg _ (?_ : _ = ix2 (0 : Fin 1) j)).trans (shapeCast_a_1a_apply rv _ 0 j)
    funext a; apply Fin.ext
    match a with
    | ⟨0, _⟩ => show win1_2.index t (0 : Fin 2) * 1 + 1 * 0 = 0; rw [e6]
    | ⟨1, _⟩ => show win1_2.index t (1 : Fin 2) * 64 + 1 * j.val = j.val; rw [e7]; omega
  · show V c main_v45 (((cfg1.win 3).blk t).view.emb (ix2 (0 : Fin 1) j)) = _
    rw [h3]
    refine (congrArg _ (?_ : _ = ix2 (0 : Fin 1) j)).trans (shapeCast_a_1a_apply g _ 0 j)
    funext a; apply Fin.ext
    match a with
    | ⟨0, _⟩ => show win1_3.index t (0 : Fin 2) * 1 + 1 * 0 = 0; rw [e8]
    | ⟨1, _⟩ => show win1_3.index t (1 : Fin 2) * 64 + 1 * j.val = j.val; rw [e9]; omega
  · show V c main_v46 (((cfg1.win 4).blk t).view.emb (ix2 (0 : Fin 1) j)) = _
    rw [h4]
    refine (congrArg _ (?_ : _ = ix2 (0 : Fin 1) j)).trans (shapeCast_a_1a_apply b _ 0 j)
    funext a; apply Fin.ext
    match a with
    | ⟨0, _⟩ => show win1_4.index t (0 : Fin 2) * 1 + 1 * 0 = 0; rw [e10]
    | ⟨1, _⟩ => show win1_4.index t (1 : Fin 2) * 64 + 1 * j.val = j.val; rw [e11]; omega

/-- An index of the array is in point t's output block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v47).slice (win1_5.rect t)).set ↔ _
  rw [View.set_slice_whole, Rect.mem_set_unit]
  exact Iff.rfl

/-- Every index of the array lies in some point's output block: row r in that of point r / 10000. -/
theorem cover1 (i : S100000x64.Idx) : ∃ t : Fin cfg1.N, (cfg1.win 5).flush t = true ∧ i ∈ ((cfg1.win 5).blk t).view.set := by
  have hN : cfg1.N = 10 := Gen.N_1
  have hi0 : (i 0).val < 100000 := idx2_lt0 i
  have hi1 : (i 1).val < 64 := idx2_lt1 i
  refine ⟨⟨(i 0).val / 10000, by rw [hN]; omega⟩, Gen.flush1_5 _, ?_⟩
  obtain ⟨-, -, e2, e3, -⟩ := idx_facts1 ⟨(i 0).val / 10000, by rw [hN]; omega⟩
  rw [mem_blk1]
  intro a
  match a with
  | ⟨0, _⟩ =>
    show win1_5.index _ (0 : Fin 2) * 10000 ≤ (i 0).val ∧ (i 0).val < win1_5.index _ (0 : Fin 2) * 10000 + 10000
    rw [e2]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e3]; omega

/-! ## Region 3 -/

/-- The index maps of region 3, decided over its ten points: the input block moves with the output block, whose
    block index is (t, 0); the four rows stay at block (0, 0). -/
theorem idx_facts3 : ∀ t : Fin cfg3.N, win3_0.index t (0 : Fin 2) = win3_5.index t (0 : Fin 2)
    ∧ win3_0.index t (1 : Fin 2) = win3_5.index t (1 : Fin 2)
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point t writes back is block t of the batch-normalised, ELU-activated array: rows 10000 t … 10000 t + 9999. -/
theorem flushed3_eq (V : (c : Dev nD) → (b : Ref sig .tc) → Buf (Elt Ideal) ((c : Thread nD τ).loc b)) (c : Dev nD) (rm rv g b : FVec Ideal S64 .f32)
    (h1 : V c main_v62 = shapeCast S1x64 rm Cert.KernelIdeal.Facts₀.shapeCasts_S64_S1x64) (h2 : V c main_v63 = shapeCast S1x64 rv Cert.KernelIdeal.Facts₀.shapeCasts_S64_S1x64)
    (h3 : V c main_v64 = shapeCast S1x64 g Cert.KernelIdeal.Facts₀.shapeCasts_S64_S1x64) (h4 : V c main_v65 = shapeCast S1x64 b Cert.KernelIdeal.Facts₀.shapeCasts_S64_S1x64)
    (t : Fin cfg3.N) :
    (Gen.dat3 (F := Ideal) V c).flushed 5 t
      = ((cfg3.win 5).blk t).view.read (Elt Ideal) (Cert.Spec.bnEluT (F := Ideal) (V c main_v61) rm rv g b) := by
  show (cfg3.win 5).cut (grid3.coords t) ((Gen.dat3 V c).after 5 t) = _
  rw [Gen.after3_5]
  unfold Gen.out3_5
  rw [View.canon_unit_zero zero_offsets]
  simp only [View.ld_unit_zero (S := S10000x64) zero_offsets, View.ld_unit_zero (S := S1x64) zero_offsets]
  obtain ⟨e0, e1, e2, e3, e4, e5, e6, e7, e8, e9, e10, e11⟩ := idx_facts3 t
  funext y
  show Gen.k1_pay1 (Gen.iblk3 V c 0 t) (Gen.iblk3 V c 1 t) (Gen.iblk3 V c 2 t) (Gen.iblk3 V c 3 t) (Gen.iblk3 V c 4 t) y
    = Cert.Spec.bnEluT (F := Ideal) (V c main_v61) rm rv g b (((cfg3.win 5).blk t).view.emb y)
  refine block_entry _ _ _ _ _ _ _ _ _ _ y _ ?_ ?_ (fun j => ?_) (fun j => ?_) (fun j => ?_) (fun j => ?_)
  · show V c main_v61 (((cfg3.win 0).blk t).view.emb y) = V c main_v61 (((cfg3.win 5).blk t).view.emb y)
    refine congrArg _ (funext fun a => Fin.ext ?_)
    match a with
    | ⟨0, _⟩ => show win3_0.index t (0 : Fin 2) * 10000 + 1 * (y 0).val = win3_5.index t (0 : Fin 2) * 10000 + 1 * (y 0).val; rw [e0]
    | ⟨1, _⟩ => show win3_0.index t (1 : Fin 2) * 64 + 1 * (y 1).val = win3_5.index t (1 : Fin 2) * 64 + 1 * (y 1).val; rw [e1]
  · show win3_5.index t (1 : Fin 2) * 64 + 1 * (y 1).val = (y 1).val
    rw [e3]; omega
  · show V c main_v62 (((cfg3.win 1).blk t).view.emb (ix2 (0 : Fin 1) j)) = _
    rw [h1]
    refine (congrArg _ (?_ : _ = ix2 (0 : Fin 1) j)).trans (shapeCast_a_1a_apply rm _ 0 j)
    funext a; apply Fin.ext
    match a with
    | ⟨0, _⟩ => show win3_1.index t (0 : Fin 2) * 1 + 1 * 0 = 0; rw [e4]
    | ⟨1, _⟩ => show win3_1.index t (1 : Fin 2) * 64 + 1 * j.val = j.val; rw [e5]; omega
  · show V c main_v63 (((cfg3.win 2).blk t).view.emb (ix2 (0 : Fin 1) j)) = _
    rw [h2]
    refine (congrArg _ (?_ : _ = ix2 (0 : Fin 1) j)).trans (shapeCast_a_1a_apply rv _ 0 j)
    funext a; apply Fin.ext
    match a with
    | ⟨0, _⟩ => show win3_2.index t (0 : Fin 2) * 1 + 1 * 0 = 0; rw [e6]
    | ⟨1, _⟩ => show win3_2.index t (1 : Fin 2) * 64 + 1 * j.val = j.val; rw [e7]; omega
  · show V c main_v64 (((cfg3.win 3).blk t).view.emb (ix2 (0 : Fin 1) j)) = _
    rw [h3]
    refine (congrArg _ (?_ : _ = ix2 (0 : Fin 1) j)).trans (shapeCast_a_1a_apply g _ 0 j)
    funext a; apply Fin.ext
    match a with
    | ⟨0, _⟩ => show win3_3.index t (0 : Fin 2) * 1 + 1 * 0 = 0; rw [e8]
    | ⟨1, _⟩ => show win3_3.index t (1 : Fin 2) * 64 + 1 * j.val = j.val; rw [e9]; omega
  · show V c main_v65 (((cfg3.win 4).blk t).view.emb (ix2 (0 : Fin 1) j)) = _
    rw [h4]
    refine (congrArg _ (?_ : _ = ix2 (0 : Fin 1) j)).trans (shapeCast_a_1a_apply b _ 0 j)
    funext a; apply Fin.ext
    match a with
    | ⟨0, _⟩ => show win3_4.index t (0 : Fin 2) * 1 + 1 * 0 = 0; rw [e10]
    | ⟨1, _⟩ => show win3_4.index t (1 : Fin 2) * 64 + 1 * j.val = j.val; rw [e11]; omega

/-- An index of the array is in point t's output block iff each coordinate is in the block's range on its axis. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v66).slice (win3_5.rect t)).set ↔ _
  rw [View.set_slice_whole, Rect.mem_set_unit]
  exact Iff.rfl

/-- Every index of the array lies in some point's output block: row r in that of point r / 10000. -/
theorem cover3 (i : S100000x64.Idx) : ∃ t : Fin cfg3.N, (cfg3.win 5).flush t = true ∧ i ∈ ((cfg3.win 5).blk t).view.set := by
  have hN : cfg3.N = 10 := Gen.N_3
  have hi0 : (i 0).val < 100000 := idx2_lt0 i
  have hi1 : (i 1).val < 64 := idx2_lt1 i
  refine ⟨⟨(i 0).val / 10000, by rw [hN]; omega⟩, Gen.flush3_5 _, ?_⟩
  obtain ⟨-, -, e2, e3, -⟩ := idx_facts3 ⟨(i 0).val / 10000, by rw [hN]; omega⟩
  rw [mem_blk3]
  intro a
  match a with
  | ⟨0, _⟩ =>
    show win3_5.index _ (0 : Fin 2) * 10000 ≤ (i 0).val ∧ (i 0).val < win3_5.index _ (0 : Fin 2) * 10000 + 10000
    rw [e2]; show (i 0).val / 10000 * 10000 ≤ (i 0).val ∧ (i 0).val < (i 0).val / 10000 * 10000 + 10000; omega
  | ⟨1, _⟩ =>
    show win3_5.index _ (1 : Fin 2) * 64 ≤ (i 1).val ∧ (i 1).val < win3_5.index _ (1 : Fin 2) * 64 + 64
    rw [e3]; omega

end BnElu

open BnElu

/-- REGION 1. After the region the output array is the inference-mode batch normalisation of the input array by the
    four per-feature vectors, followed by ELU: the reference's function of the same arrays. -/
theorem bn1 (V : (c : Dev nD) → (b : Ref sig .tc) → Buf (Elt Ideal) ((c : Thread nD τ).loc b)) (c : Dev nD) (rm rv g b : FVec Ideal S64 .f32)
    (h1 : V c main_v43 = shapeCast S1x64 rm Cert.KernelIdeal.Facts₀.shapeCasts_S64_S1x64) (h2 : V c main_v44 = shapeCast S1x64 rv Cert.KernelIdeal.Facts₀.shapeCasts_S64_S1x64)
    (h3 : V c main_v45 = shapeCast S1x64 g Cert.KernelIdeal.Facts₀.shapeCasts_S64_S1x64) (h4 : V c main_v46 = shapeCast S1x64 b Cert.KernelIdeal.Facts₀.shapeCasts_S64_S1x64) :
    (Gen.dat1 (F := Ideal) V c).arrAt 5 cfg1.N = Cert.Spec.bnEluT (F := Ideal) (V c main_v42) rm rv g b :=
  (Gen.dat1 (F := Ideal) V c).arrAt_eq_of_cover 5 (Cert.Spec.bnEluT (F := Ideal) (V c main_v42) rm rv g b)
    (fun t _ => flushed1_eq V c rm rv g b h1 h2 h3 h4 t) cover1

/-- REGION 3. After the region the output array is the inference-mode batch normalisation of the input array by the
    four per-feature vectors, followed by ELU: the reference's function of the same arrays. -/
theorem bn3 (V : (c : Dev nD) → (b : Ref sig .tc) → Buf (Elt Ideal) ((c : Thread nD τ).loc b)) (c : Dev nD) (rm rv g b : FVec Ideal S64 .f32)
    (h1 : V c main_v62 = shapeCast S1x64 rm Cert.KernelIdeal.Facts₀.shapeCasts_S64_S1x64) (h2 : V c main_v63 = shapeCast S1x64 rv Cert.KernelIdeal.Facts₀.shapeCasts_S64_S1x64)
    (h3 : V c main_v64 = shapeCast S1x64 g Cert.KernelIdeal.Facts₀.shapeCasts_S64_S1x64) (h4 : V c main_v65 = shapeCast S1x64 b Cert.KernelIdeal.Facts₀.shapeCasts_S64_S1x64) :
    (Gen.dat3 (F := Ideal) V c).arrAt 5 cfg3.N = Cert.Spec.bnEluT (F := Ideal) (V c main_v61) rm rv g b :=
  (Gen.dat3 (F := Ideal) V c).arrAt_eq_of_cover 5 (Cert.Spec.bnEluT (F := Ideal) (V c main_v61) rm rv g b)
    (fun t _ => flushed3_eq V c rm rv g b h1 h2 h3 h4 t) cover3

end Cert.KernelIdeal.Hand

end
-- ==== Proof.RegionPool.lean ====
/-
  Region 4 of the graph classifier: mean pooling followed by the linear classifier.

  The region has one grid point. It reads the per-graph feature sums [1024,64], the per-graph node counts as a column
  [1024,1], the classifier weights [4,64] and the bias as a row [1,4], each as one block that is the whole array, and
  writes the whole output [1024,4]:

      out[g, k] = Σ_f (sums[g, f] / max(cnt[g], 1)) · W[k, f]  +  b[k].

  The reference spells the same value with the counts as a vector [1024] and the bias as a vector [4], both laid out by
  `broadcast_in_dim`, and with a host `dot_general` against the transposed weights. At the ideal values a narrowing of
  the float format is the identity and a matrix product accumulated into zero is the plain sum over the contracted
  axis, so the two spellings agree entry by entry.
-/
import proofs.«171306_j22711787061812_1_alg».proof.Proof.Gen.KernelIdeal.Frame
import proofs.«171306_j22711787061812_1_alg».proof.Proof.Gen.ReferenceIdeal
import proofs.«171306_j22711787061812_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Hand

/-! ## A column or a vector laid out along an axis, read at an entry -/

section Layout
variable {α : Type}

/-- A column `[a, 1]` repeated along `b` columns (the vector unit's broadcast) reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column repeated by the host's `broadcast_in_dim` along axes `[0, 1]`. -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` by the host's `broadcast_in_dim` along axis `0` reads, at `(p, u)`, the vector at `p`. -/
theorem broadcastInDim_a_a1_apply {a : ℕ} (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A vector `[a]` reshaped to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector `[b]` made a row `[1, b]` by the host's `broadcast_in_dim` along axis `1` reads, at `(u, c)`, the vector at `c`. -/
theorem broadcastInDim_b_1b_apply {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

end Layout

/-! ## The body's value is the reference's pooling and classifier -/

/-- The two programs' dimension numbers for the classifier's product are one record. -/
theorem dot_eq : Cert.KernelIdeal.dot_S1024x64_S64x4_S1024x4_1_0_0_1_n_n = Cert.ReferenceIdeal.dot_S1024x64_S64x4_S1024x4_1_0_0_1_n_n := rfl

/-- The pooled features as the kernel spells them: the sums over the column `max(cnt, 1)` repeated along the features,
    narrowed (the identity at the ideal values). At `(g, f)`: `sums[g, f] / max(cnt[g], 1)`. -/
theorem pooledK_apply (x0 : FVec Ideal S1024x64 .f32) (cnt : FVec Ideal S1024 .f32) (g : Fin 1024) (f : Fin 64) :
    (truncf .bf16 (divf x0 (broadcastTo S1024x64 (maximumf (shapeCast S1024x1 cnt shapeCasts_S1024_S1024x1)
        (broadcast S1024x1 (Scalar.ofBits (F := Ideal) .f32 0x3F800000#32))) broadcasts_S1024x1_S1024x64)) bitsLt_bf16_f32 : FVec Ideal S1024x64 .bf16) (ix2 g f)
      = Ideal.div (x0 (ix2 g f)) (max (cnt (ix1 g)) (Ideal.ofBits .f32 0x3F800000#32)) := by
  rw [truncf_apply, divf_apply, broadcastTo_a1_ab_apply, maximumf_apply, shapeCast_a_a1_apply, broadcast_apply]
  rfl

/-- The pooled features as the reference spells them: `max(cnt, 1)` taken on the vector, made a column and repeated
    along the features by `broadcast_in_dim`. The same entry. -/
theorem pooledR_apply (x0 : FVec Ideal S1024x64 .f32) (cnt : FVec Ideal S1024 .f32)
    (h0 : S_.BroadcastsInDim S1024 ![]) (h1 : S1024.BroadcastsInDim S1024x1 ![0]) (h2 : S1024x1.BroadcastsInDim S1024x64 ![0, 1])
    (g : Fin 1024) (f : Fin 64) :
    Host.divf (F := Ideal) x0 (broadcastInDim S1024x64 ![0, 1] h2 (broadcastInDim S1024x1 ![0] h1
        (maximumf cnt (broadcastInDim S1024 ![] h0 (constant (F := Ideal) S_ .f32 0x3F800000#32))))) (ix2 g f)
      = Ideal.div (x0 (ix2 g f)) (max (cnt (ix1 g)) (Ideal.ofBits .f32 0x3F800000#32)) := by
  show Ideal.div (x0 (ix2 g f)) _ = _
  rw [broadcastInDim_a1_ab_apply, broadcastInDim_a_a1_apply, maximumf_apply, broadcastInDim_constant, broadcast_apply]
  rfl

/-- The bias as the kernel spells it (the vector reshaped to a row, repeated along the graphs) and as the reference
    spells it (`broadcast_in_dim` to a row, then along the graphs): both read, at `(g, k)`, the bias at `k`. -/
theorem biasK_apply (lnb : FVec Ideal S4 .f32) (g : Fin 1024) (k : Fin 4) :
    broadcastTo S1024x4 (shapeCast S1x4 (shapeCast S1x4 lnb shapeCasts_S4_S1x4) shapeCasts_S1x4_S1x4) broadcasts_S1x4_S1024x4 (ix2 g k)
      = lnb (ix1 k) := by
  rw [broadcastTo_1b_ab_apply, shapeCast_self, shapeCast_a_1a_apply]

theorem biasR_apply (lnb : FVec Ideal S4 .f32) (h0 : S4.BroadcastsInDim S1x4 ![1]) (h1 : S1x4.BroadcastsInDim S1024x4 ![0, 1])
    (g : Fin 1024) (k : Fin 4) :
    broadcastInDim S1024x4 ![0, 1] h1 (broadcastInDim S1x4 ![1] h0 lnb) (ix2 g k) = lnb (ix1 k) := by
  rw [broadcastInDim_oneRow_apply, broadcastInDim_b_1b_apply]

/-- THE BODY'S VALUE: on the sums, the counts as a column, the weights and the bias as a row, the stored vector is the
    reference's mean pooling and classifier of the sums, the counts, the weights and the bias. Entry `(g, k)` of either
    is `Σ_f (sums[g, f] / max(cnt[g], 1)) · W[k, f] + b[k]`: the product accumulated into zero and the host's product are
    the same sum over the contracted axis, whose terms agree by the two lemmas above; so do the biases. -/
theorem pay_eq_poolT (x0 : FVec Ideal S1024x64 .f32) (cnt : FVec Ideal S1024 .f32) (x2 : FVec Ideal S4x64 .f32) (lnb : FVec Ideal S4 .f32) :
    Gen.k4_pay1 (F := Ideal) x0 (shapeCast S1024x1 cnt shapeCasts_S1024_S1024x1) x2 (shapeCast S1x4 lnb shapeCasts_S4_S1x4)
      = Cert.Spec.poolT (F := Ideal) x0 cnt x2 lnb := by
  unfold Gen.k4_pay1 Cert.Spec.poolT
  dsimp only
  funext j
  obtain ⟨g, k, rfl⟩ : ∃ (g : Fin 1024) (k : Fin 4), j = ix2 g k := ⟨j 0, j 1, eq_ix2 j⟩
  refine (addf_apply _ _ _).trans (Eq.trans ?_ (addf_apply _ _ _).symm)
  refine congrArg₂ (· + ·) ?_ ((biasK_apply lnb g k).trans (biasR_apply lnb _ _ g k).symm)
  simp only [shapeCast_self]
  refine (Ideal.matmul_constant_zero_apply _ none _ _ _).trans ?_
  refine Eq.trans ?_ (Ideal.dotGeneral_apply _ none _ _ _ _).symm
  rw [dot_eq]
  refine Finset.sum_congr rfl fun q _ => congrArg₂ (· * ·) ?_ rfl
  generalize Cert.ReferenceIdeal.dot_S1024x64_S64x4_S1024x4_1_0_0_1_n_n.lhsIdx (ix2 g k) q = i
  obtain ⟨g', f, rfl⟩ : ∃ (g' : Fin 1024) (f : Fin 64), i = ix2 g' f := ⟨i 0, i 1, eq_ix2 i⟩
  exact (pooledK_apply x0 cnt g' f).trans (pooledR_apply x0 cnt _ _ _ g' f).symm

/-! ## From the one block to the array -/

variable (V : (c : Dev nD) → (b : Ref sig .tc) → Buf (Elt Ideal) ((c : Thread nD τ).loc b))

/-- A block offset of zero on both axes. -/
theorem zero_off : (![0, 0] : Fin 2 → Nat) = fun _ => 0 := funext fun a => by fin_cases a <;> rfl

/-- The grid's one point reads the whole array of per-graph sums as its block: the block index is 0 on both axes. -/
theorem iblk_sums (c : Dev nD) (t : Fin cfg4.N) : (Gen.iblk4 (F := Ideal) V c 0 t : Vec Ideal S1024x64 .f32) = V c main_v69 := by
  obtain rfl := Gen.fin_N4 t
  have hz' : (fun a => win4_0.index t4_0 a * main_v69.ty.shape.size a) = fun _ => 0 := funext fun a => by fin_cases a <;> decide +kernel
  exact Memref.read_access_unit_zero (Elt Ideal) main_v69 hz' (fun a => by rw [congrFun hz' a]; simp) (V c main_v69)

/-- The same of the counts' column, -/
theorem iblk_cnt (c : Dev nD) (t : Fin cfg4.N) : (Gen.iblk4 (F := Ideal) V c 1 t : Vec Ideal S1024x1 .f32) = V c main_v74 := by
  obtain rfl := Gen.fin_N4 t
  have hz' : (fun a => win4_1.index t4_0 a * main_v74.ty.shape.size a) = fun _ => 0 := funext fun a => by fin_cases a <;> decide +kernel
  exact Memref.read_access_unit_zero (Elt Ideal) main_v74 hz' (fun a => by rw [congrFun hz' a]; simp) (V c main_v74)

/-- of the classifier's weights, -/
theorem iblk_w (c : Dev nD) (t : Fin cfg4.N) : (Gen.iblk4 (F := Ideal) V c 2 t : Vec Ideal S4x64 .f32) = V c main_arg14 := by
  obtain rfl := Gen.fin_N4 t
  have hz' : (fun a => win4_2.index t4_0 a * main_arg14.ty.shape.size a) = fun _ => 0 := funext fun a => by fin_cases a <;> decide +kernel
  exact Memref.read_access_unit_zero (Elt Ideal) main_arg14 hz' (fun a => by rw [congrFun hz' a]; simp) (V c main_arg14)

/-- and of the bias's row. -/
theorem iblk_b (c : Dev nD) (t : Fin cfg4.N) : (Gen.iblk4 (F := Ideal) V c 3 t : Vec Ideal S1x4 .f32) = V c main_v75 := by
  obtain rfl := Gen.fin_N4 t
  have hz' : (fun a => win4_3.index t4_0 a * main_v75.ty.shape.size a) = fun _ => 0 := funext fun a => by fin_cases a <;> decide +kernel
  exact Memref.read_access_unit_zero (Elt Ideal) main_v75 hz' (fun a => by rw [congrFun hz' a]; simp) (V c main_v75)

/-- What the point leaves in the output's buffer: the pooling and classifier of the region's input arrays, when the
    counts' column and the bias's row are reshapes of vectors. -/
theorem after_eq (c : Dev nD) (cnt : FVec Ideal S1024 .f32) (lnb : FVec Ideal S4 .f32)
    (h1 : V c main_v74 = shapeCast S1024x1 cnt shapeCasts_S1024_S1024x1) (h3 : V c main_v75 = shapeCast S1x4 lnb shapeCasts_S4_S1x4)
    (t : Fin cfg4.N) :
    (Gen.dat4 (F := Ideal) V c).after 4 t = Cert.Spec.poolT (F := Ideal) (V c main_v69) cnt (V c main_arg14) lnb := by
  rw [Gen.after4_4]
  unfold Gen.out4_4
  rw [View.canon_unit_zero zero_off]
  simp only [View.ld_unit_zero (S := S1024x64) zero_off, View.ld_unit_zero (S := S1024x1) zero_off,
    View.ld_unit_zero (S := S4x64) zero_off, View.ld_unit_zero (S := S1x4) zero_off]
  rw [iblk_sums V c t, iblk_cnt V c t, iblk_w V c t, iblk_b V c t, h1, h3]
  exact pay_eq_poolT _ cnt _ lnb

/-- What the point writes back is the output's one block, the whole array, of that value. -/
theorem flushed_eq (c : Dev nD) (cnt : FVec Ideal S1024 .f32) (lnb : FVec Ideal S4 .f32)
    (h1 : V c main_v74 = shapeCast S1024x1 cnt shapeCasts_S1024_S1024x1) (h3 : V c main_v75 = shapeCast S1x4 lnb shapeCasts_S4_S1x4)
    (t : Fin cfg4.N) :
    (Gen.dat4 (F := Ideal) V c).flushed 4 t
      = ((cfg4.win 4).blk t).view.read (Elt Ideal) (Cert.Spec.poolT (F := Ideal) (V c main_v69) cnt (V c main_arg14) lnb) := by
  show (cfg4.win 4).cut (grid4.coords t) ((Gen.dat4 V c).after 4 t) = _
  rw [after_eq V c cnt lnb h1 h3 t]
  obtain rfl := Gen.fin_N4 t
  have hz' : (fun a => win4_4.index t4_0 a * main_v76.ty.shape.size a) = fun _ => 0 := funext fun a => by fin_cases a <;> decide +kernel
  exact (Memref.read_access_unit_zero (Elt Ideal) main_v76 hz' (fun a => by rw [congrFun hz' a]; simp) _).symm

/-- THE REGION'S OUTPUT ARRAY: after the region the output holds the reference's mean pooling and classifier of the
    sums, the counts, the weights and the bias. The one point's block covers every entry of the array. -/
theorem pool4 (c : Dev nD) (cnt : FVec Ideal S1024 .f32) (lnb : FVec Ideal S4 .f32)
    (h1 : V c main_v74 = shapeCast S1024x1 cnt shapeCasts_S1024_S1024x1) (h3 : V c main_v75 = shapeCast S1x4 lnb shapeCasts_S4_S1x4) :
    (Gen.dat4 (F := Ideal) V c).arrAt 4 cfg4.N = Cert.Spec.poolT (F := Ideal) (V c main_v69) cnt (V c main_arg14) lnb :=
  (Gen.dat4 (F := Ideal) V c).arrAt_eq_of_cover 4 (Cert.Spec.poolT (F := Ideal) (V c main_v69) cnt (V c main_arg14) lnb)
    (fun t _ => flushed_eq V c cnt lnb h1 h3 t) fun i =>
    ⟨t4_0, Gen.flush4_4 t4_0, by
      show i ∈ ((View.whole main_v76).slice (win4_4.rect t4_0)).set
      rw [View.set_slice_whole, Rect.mem_set_unit]
      intro a
      have b0 : (i 0 : Nat) < 1024 := (i 0).isLt
      have b1 : (i 1 : Nat) < 4 := (i 1).isLt
      match a with
      | ⟨0, _⟩ =>
        show win4_4.index t4_0 0 * win4_4.size 0 ≤ (i 0 : Nat) ∧ (i 0 : Nat) < win4_4.index t4_0 0 * win4_4.size 0 + win4_4.xsize (grid4.coords t4_0) 0
        rw [show win4_4.index t4_0 0 * win4_4.size 0 = 0 from by decide +kernel, show win4_4.xsize (grid4.coords t4_0) 0 = 1024 from by decide +kernel]; omega
      | ⟨1, _⟩ =>
        show win4_4.index t4_0 1 * win4_4.size 1 ≤ (i 1 : Nat) ∧ (i 1 : Nat) < win4_4.index t4_0 1 * win4_4.size 1 + win4_4.xsize (grid4.coords t4_0) 1
        rw [show win4_4.index t4_0 1 * win4_4.size 1 = 0 from by decide +kernel, show win4_4.xsize (grid4.coords t4_0) 1 = 4 from by decide +kernel]; omega⟩

end Cert.KernelIdeal.Hand

end
-- ==== Proof.KernelValue.lean ====
/-
  The value of the kernel's program: the buffer contents at each boundary of @main — after a stretch of host operations,
  after a region — read at what the next step uses, from the launch contents to the result. Along the way: the edge
  normalisation; per layer the projection x · Wᵀ (a region), the neighbourhood sums (host), the batch normalisation and
  ELU (a region); the per-graph sums and counts (host); the mean pooling and the classifier (a region). The result
  array ends at the network `refOut` of the sixteen argument arrays.
-/
import proofs.«171306_j22711787061812_1_alg».proof.Proof.KernelStretches
import proofs.«171306_j22711787061812_1_alg».proof.Proof.RegionLin
import proofs.«171306_j22711787061812_1_alg».proof.Proof.RegionBnElu
import proofs.«171306_j22711787061812_1_alg».proof.Proof.RegionPool

noncomputable section

namespace Cert.KernelIdeal.Hand

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## The argument arrays and the network's intermediate values, named -/
abbrev a0 : FVec Ideal S100000x64 .f32 := m ((c.tc : Thread nD τ).loc main_arg0)
abbrev a1 : IVec S2x1600000 32 := m ((c.tc : Thread nD τ).loc main_arg1)
abbrev a2 : FVec Ideal S1600000 .f32 := m ((c.tc : Thread nD τ).loc main_arg2)
abbrev a3 : IVec S100000 32 := m ((c.tc : Thread nD τ).loc main_arg3)
abbrev a4 : FVec Ideal S64x64 .f32 := m ((c.tc : Thread nD τ).loc main_arg4)
abbrev a5 : FVec Ideal S64 .f32 := m ((c.tc : Thread nD τ).loc main_arg5)
abbrev a6 : FVec Ideal S64 .f32 := m ((c.tc : Thread nD τ).loc main_arg6)
abbrev a7 : FVec Ideal S64 .f32 := m ((c.tc : Thread nD τ).loc main_arg7)
abbrev a8 : FVec Ideal S64 .f32 := m ((c.tc : Thread nD τ).loc main_arg8)
abbrev a9 : FVec Ideal S64x64 .f32 := m ((c.tc : Thread nD τ).loc main_arg9)
abbrev a10 : FVec Ideal S64 .f32 := m ((c.tc : Thread nD τ).loc main_arg10)
abbrev a11 : FVec Ideal S64 .f32 := m ((c.tc : Thread nD τ).loc main_arg11)
abbrev a12 : FVec Ideal S64 .f32 := m ((c.tc : Thread nD τ).loc main_arg12)
abbrev a13 : FVec Ideal S64 .f32 := m ((c.tc : Thread nD τ).loc main_arg13)
abbrev a14 : FVec Ideal S4x64 .f32 := m ((c.tc : Thread nD τ).loc main_arg14)
abbrev a15 : FVec Ideal S4 .f32 := m ((c.tc : Thread nD τ).loc main_arg15)

/-- The edge normalisation dis[row] · weight · dis[col]. -/
abbrev tNrm : FVec Ideal S1600000 .f32 := nrmT (F := Ideal) (a1 m c) (a2 m c)
/-- Layer 1: the projection, the neighbourhood sums, the normalised activation. -/
abbrev tH1 : FVec Ideal S100000x64 .f32 := linT (F := Ideal) (a0 m c) (a4 m c)
abbrev tAgg1 : FVec Ideal S100000x64 .f32 := aggT (F := Ideal) (rowT (a1 m c)) (colT (a1 m c)) (tNrm m c) (tH1 m c)
abbrev tX1 : FVec Ideal S100000x64 .f32 := bnEluT (F := Ideal) (tAgg1 m c) (a7 m c) (a8 m c) (a5 m c) (a6 m c)
/-- Layer 2, on layer 1's activation. -/
abbrev tH2 : FVec Ideal S100000x64 .f32 := linT (F := Ideal) (tX1 m c) (a9 m c)
abbrev tAgg2 : FVec Ideal S100000x64 .f32 := aggT (F := Ideal) (rowT (a1 m c)) (colT (a1 m c)) (tNrm m c) (tH2 m c)
abbrev tX2 : FVec Ideal S100000x64 .f32 := bnEluT (F := Ideal) (tAgg2 m c) (a12 m c) (a13 m c) (a10 m c) (a11 m c)
/-- The per-graph sums and the result. -/
abbrev tSums : FVec Ideal S1024x64 .f32 := sumsT (F := Ideal) (a3 m c) (tX2 m c)
abbrev tOut : FVec Ideal S1024x4 .f32 := poolT (F := Ideal) (tSums m c) (cntT (F := Ideal) (a3 m c)) (a14 m c) (a15 m c)

/-- The composition is the network as the reference's stages spell it. -/
theorem tOut_eq : tOut m c = refOut (F := Ideal) (a0 m c) (a1 m c) (a2 m c) (a3 m c) (a4 m c) (a5 m c) (a6 m c) (a7 m c) (a8 m c) (a9 m c) (a10 m c) (a11 m c) (a12 m c) (a13 m c) (a14 m c) (a15 m c) := rfl

/-! ## The buffer contents at each boundary of @main, read at what the next step uses -/
theorem w2_dis : (W2 m ρ c (Proc.devRef .tc main_v12) : FVec Ideal S100000 .f32) = disT (F := Ideal) (a1 m c) (a2 m c) := gA_dis (W0 m ρ c)
theorem w2_row : (W2 m ρ c (Proc.devRef .tc main_v1) : IVec S1600000 32) = rowT (a1 m c) := gA_row (W0 m ρ c)
theorem w2_col : (W2 m ρ c (Proc.devRef .tc main_v3) : IVec S1600000 32) = colT (a1 m c) := gA_col (W0 m ρ c)
theorem w2_arg2 : (W2 m ρ c (Proc.devRef .tc main_arg2) : FVec Ideal S1600000 .f32) = (a2 m c) := gA_keep_arg2 (W0 m ρ c)
theorem v3_v1 : (W3 m ρ c (Proc.devRef .tc main_v1) : IVec S1600000 32) = rowT (a1 m c) :=
  (gB_keep_v1 (W2 m ρ c)).trans (w2_row m ρ c)
theorem v3_v3 : (W3 m ρ c (Proc.devRef .tc main_v3) : IVec S1600000 32) = colT (a1 m c) :=
  (gB_keep_v3 (W2 m ρ c)).trans (w2_col m ρ c)
theorem v3_v28 : (W3 m ρ c (Proc.devRef .tc main_v28) : FVec Ideal S1600000 .f32) = tNrm m c :=
  (gB_nrm (W2 m ρ c)).trans (by rw [w2_dis m ρ c, w2_row m ρ c, w2_col m ρ c, w2_arg2 m ρ c]; try rfl)
theorem v3_arg0 : (W3 m ρ c (Proc.devRef .tc main_arg0) : FVec Ideal S100000x64 .f32) = (a0 m c) :=
  g03_keep_arg0 (W0 m ρ c)
theorem v3_arg3 : (W3 m ρ c (Proc.devRef .tc main_arg3) : IVec S100000 32) = (a3 m c) :=
  g03_keep_arg3 (W0 m ρ c)
theorem v3_arg4 : (W3 m ρ c (Proc.devRef .tc main_arg4) : FVec Ideal S64x64 .f32) = (a4 m c) :=
  g03_keep_arg4 (W0 m ρ c)
theorem v3_arg5 : (W3 m ρ c (Proc.devRef .tc main_arg5) : FVec Ideal S64 .f32) = (a5 m c) :=
  g03_keep_arg5 (W0 m ρ c)
theorem v3_arg6 : (W3 m ρ c (Proc.devRef .tc main_arg6) : FVec Ideal S64 .f32) = (a6 m c) :=
  g03_keep_arg6 (W0 m ρ c)
theorem v3_arg7 : (W3 m ρ c (Proc.devRef .tc main_arg7) : FVec Ideal S64 .f32) = (a7 m c) :=
  g03_keep_arg7 (W0 m ρ c)
theorem v3_arg8 : (W3 m ρ c (Proc.devRef .tc main_arg8) : FVec Ideal S64 .f32) = (a8 m c) :=
  g03_keep_arg8 (W0 m ρ c)
theorem v3_arg9 : (W3 m ρ c (Proc.devRef .tc main_arg9) : FVec Ideal S64x64 .f32) = (a9 m c) :=
  g03_keep_arg9 (W0 m ρ c)
theorem v3_arg10 : (W3 m ρ c (Proc.devRef .tc main_arg10) : FVec Ideal S64 .f32) = (a10 m c) :=
  g03_keep_arg10 (W0 m ρ c)
theorem v3_arg11 : (W3 m ρ c (Proc.devRef .tc main_arg11) : FVec Ideal S64 .f32) = (a11 m c) :=
  g03_keep_arg11 (W0 m ρ c)
theorem v3_arg12 : (W3 m ρ c (Proc.devRef .tc main_arg12) : FVec Ideal S64 .f32) = (a12 m c) :=
  g03_keep_arg12 (W0 m ρ c)
theorem v3_arg13 : (W3 m ρ c (Proc.devRef .tc main_arg13) : FVec Ideal S64 .f32) = (a13 m c) :=
  g03_keep_arg13 (W0 m ρ c)
theorem v3_arg14 : (W3 m ρ c (Proc.devRef .tc main_arg14) : FVec Ideal S4x64 .f32) = (a14 m c) :=
  g03_keep_arg14 (W0 m ρ c)
theorem v3_arg15 : (W3 m ρ c (Proc.devRef .tc main_arg15) : FVec Ideal S4 .f32) = (a15 m c) :=
  g03_keep_arg15 (W0 m ρ c)
theorem v4_h1 : (W4 m ρ c (Proc.devRef .tc main_v29) : FVec Ideal S100000x64 .f32) = tH1 m c :=
  (W4_arr m ρ c 2).trans ((lin0 (V3 m ρ) c).trans (by
    show linT (F := Ideal) (W3 m ρ c (Proc.devRef .tc main_arg0)) (W3 m ρ c (Proc.devRef .tc main_arg4)) = _
    rw [v3_arg0 m ρ c, v3_arg4 m ρ c]))
theorem v4_v1 : (W4 m ρ c (Proc.devRef .tc main_v1) : IVec S1600000 32) = rowT (a1 m c) :=
  (W4_of_ne m ρ c main_v1 (by decide)).trans (v3_v1 m ρ c)
theorem v4_v3 : (W4 m ρ c (Proc.devRef .tc main_v3) : IVec S1600000 32) = colT (a1 m c) :=
  (W4_of_ne m ρ c main_v3 (by decide)).trans (v3_v3 m ρ c)
theorem v4_v28 : (W4 m ρ c (Proc.devRef .tc main_v28) : FVec Ideal S1600000 .f32) = tNrm m c :=
  (W4_of_ne m ρ c main_v28 (by decide)).trans (v3_v28 m ρ c)
theorem v4_arg3 : (W4 m ρ c (Proc.devRef .tc main_arg3) : IVec S100000 32) = (a3 m c) :=
  (W4_of_ne m ρ c main_arg3 (by decide)).trans (v3_arg3 m ρ c)
theorem v4_arg5 : (W4 m ρ c (Proc.devRef .tc main_arg5) : FVec Ideal S64 .f32) = (a5 m c) :=
  (W4_of_ne m ρ c main_arg5 (by decide)).trans (v3_arg5 m ρ c)
theorem v4_arg6 : (W4 m ρ c (Proc.devRef .tc main_arg6) : FVec Ideal S64 .f32) = (a6 m c) :=
  (W4_of_ne m ρ c main_arg6 (by decide)).trans (v3_arg6 m ρ c)
theorem v4_arg7 : (W4 m ρ c (Proc.devRef .tc main_arg7) : FVec Ideal S64 .f32) = (a7 m c) :=
  (W4_of_ne m ρ c main_arg7 (by decide)).trans (v3_arg7 m ρ c)
theorem v4_arg8 : (W4 m ρ c (Proc.devRef .tc main_arg8) : FVec Ideal S64 .f32) = (a8 m c) :=
  (W4_of_ne m ρ c main_arg8 (by decide)).trans (v3_arg8 m ρ c)
theorem v4_arg9 : (W4 m ρ c (Proc.devRef .tc main_arg9) : FVec Ideal S64x64 .f32) = (a9 m c) :=
  (W4_of_ne m ρ c main_arg9 (by decide)).trans (v3_arg9 m ρ c)
theorem v4_arg10 : (W4 m ρ c (Proc.devRef .tc main_arg10) : FVec Ideal S64 .f32) = (a10 m c) :=
  (W4_of_ne m ρ c main_arg10 (by decide)).trans (v3_arg10 m ρ c)
theorem v4_arg11 : (W4 m ρ c (Proc.devRef .tc main_arg11) : FVec Ideal S64 .f32) = (a11 m c) :=
  (W4_of_ne m ρ c main_arg11 (by decide)).trans (v3_arg11 m ρ c)
theorem v4_arg12 : (W4 m ρ c (Proc.devRef .tc main_arg12) : FVec Ideal S64 .f32) = (a12 m c) :=
  (W4_of_ne m ρ c main_arg12 (by decide)).trans (v3_arg12 m ρ c)
theorem v4_arg13 : (W4 m ρ c (Proc.devRef .tc main_arg13) : FVec Ideal S64 .f32) = (a13 m c) :=
  (W4_of_ne m ρ c main_arg13 (by decide)).trans (v3_arg13 m ρ c)
theorem v4_arg14 : (W4 m ρ c (Proc.devRef .tc main_arg14) : FVec Ideal S4x64 .f32) = (a14 m c) :=
  (W4_of_ne m ρ c main_arg14 (by decide)).trans (v3_arg14 m ρ c)
theorem v4_arg15 : (W4 m ρ c (Proc.devRef .tc main_arg15) : FVec Ideal S4 .f32) = (a15 m c) :=
  (W4_of_ne m ρ c main_arg15 (by decide)).trans (v3_arg15 m ρ c)
theorem v5_agg1 : (W5 m ρ c (Proc.devRef .tc main_v42) : FVec Ideal S100000x64 .f32) = tAgg1 m c :=
  (g1_agg (W4 m ρ c)).trans (by rw [v4_v1 m ρ c, v4_v3 m ρ c, v4_v28 m ρ c, v4_h1 m ρ c]; try rfl)
theorem v5_p43 : (W5 m ρ c (Proc.devRef .tc main_v43) : FVec Ideal S1x64 .f32) = shapeCast S1x64 (a7 m c) shapeCasts_S64_S1x64 :=
  (g1_p43 (W4 m ρ c)).trans (by rw [v4_arg7 m ρ c]; try rfl)
theorem v5_p44 : (W5 m ρ c (Proc.devRef .tc main_v44) : FVec Ideal S1x64 .f32) = shapeCast S1x64 (a8 m c) shapeCasts_S64_S1x64 :=
  (g1_p44 (W4 m ρ c)).trans (by rw [v4_arg8 m ρ c]; try rfl)
theorem v5_p45 : (W5 m ρ c (Proc.devRef .tc main_v45) : FVec Ideal S1x64 .f32) = shapeCast S1x64 (a5 m c) shapeCasts_S64_S1x64 :=
  (g1_p45 (W4 m ρ c)).trans (by rw [v4_arg5 m ρ c]; try rfl)
theorem v5_p46 : (W5 m ρ c (Proc.devRef .tc main_v46) : FVec Ideal S1x64 .f32) = shapeCast S1x64 (a6 m c) shapeCasts_S64_S1x64 :=
  (g1_p46 (W4 m ρ c)).trans (by rw [v4_arg6 m ρ c]; try rfl)
theorem v5_v1 : (W5 m ρ c (Proc.devRef .tc main_v1) : IVec S1600000 32) = rowT (a1 m c) :=
  (g1_keep_v1 (W4 m ρ c)).trans (v4_v1 m ρ c)
theorem v5_v3 : (W5 m ρ c (Proc.devRef .tc main_v3) : IVec S1600000 32) = colT (a1 m c) :=
  (g1_keep_v3 (W4 m ρ c)).trans (v4_v3 m ρ c)
theorem v5_v28 : (W5 m ρ c (Proc.devRef .tc main_v28) : FVec Ideal S1600000 .f32) = tNrm m c :=
  (g1_keep_v28 (W4 m ρ c)).trans (v4_v28 m ρ c)
theorem v5_arg3 : (W5 m ρ c (Proc.devRef .tc main_arg3) : IVec S100000 32) = (a3 m c) :=
  (g1_keep_arg3 (W4 m ρ c)).trans (v4_arg3 m ρ c)
theorem v5_arg9 : (W5 m ρ c (Proc.devRef .tc main_arg9) : FVec Ideal S64x64 .f32) = (a9 m c) :=
  (g1_keep_arg9 (W4 m ρ c)).trans (v4_arg9 m ρ c)
theorem v5_arg10 : (W5 m ρ c (Proc.devRef .tc main_arg10) : FVec Ideal S64 .f32) = (a10 m c) :=
  (g1_keep_arg10 (W4 m ρ c)).trans (v4_arg10 m ρ c)
theorem v5_arg11 : (W5 m ρ c (Proc.devRef .tc main_arg11) : FVec Ideal S64 .f32) = (a11 m c) :=
  (g1_keep_arg11 (W4 m ρ c)).trans (v4_arg11 m ρ c)
theorem v5_arg12 : (W5 m ρ c (Proc.devRef .tc main_arg12) : FVec Ideal S64 .f32) = (a12 m c) :=
  (g1_keep_arg12 (W4 m ρ c)).trans (v4_arg12 m ρ c)
theorem v5_arg13 : (W5 m ρ c (Proc.devRef .tc main_arg13) : FVec Ideal S64 .f32) = (a13 m c) :=
  (g1_keep_arg13 (W4 m ρ c)).trans (v4_arg13 m ρ c)
theorem v5_arg14 : (W5 m ρ c (Proc.devRef .tc main_arg14) : FVec Ideal S4x64 .f32) = (a14 m c) :=
  (g1_keep_arg14 (W4 m ρ c)).trans (v4_arg14 m ρ c)
theorem v5_arg15 : (W5 m ρ c (Proc.devRef .tc main_arg15) : FVec Ideal S4 .f32) = (a15 m c) :=
  (g1_keep_arg15 (W4 m ρ c)).trans (v4_arg15 m ρ c)
theorem v6_x1 : (W6 m ρ c (Proc.devRef .tc main_v47) : FVec Ideal S100000x64 .f32) = tX1 m c :=
  (W6_arr m ρ c 5).trans ((bn1 (V5 m ρ) c (a7 m c) (a8 m c) (a5 m c) (a6 m c) (v5_p43 m ρ c) (v5_p44 m ρ c) (v5_p45 m ρ c) (v5_p46 m ρ c)).trans (by
    show bnEluT (F := Ideal) (W5 m ρ c (Proc.devRef .tc main_v42)) _ _ _ _ = _
    rw [v5_agg1 m ρ c]))
theorem v6_v1 : (W6 m ρ c (Proc.devRef .tc main_v1) : IVec S1600000 32) = rowT (a1 m c) :=
  (W6_of_ne m ρ c main_v1 (by decide)).trans (v5_v1 m ρ c)
theorem v6_v3 : (W6 m ρ c (Proc.devRef .tc main_v3) : IVec S1600000 32) = colT (a1 m c) :=
  (W6_of_ne m ρ c main_v3 (by decide)).trans (v5_v3 m ρ c)
theorem v6_v28 : (W6 m ρ c (Proc.devRef .tc main_v28) : FVec Ideal S1600000 .f32) = tNrm m c :=
  (W6_of_ne m ρ c main_v28 (by decide)).trans (v5_v28 m ρ c)
theorem v6_arg3 : (W6 m ρ c (Proc.devRef .tc main_arg3) : IVec S100000 32) = (a3 m c) :=
  (W6_of_ne m ρ c main_arg3 (by decide)).trans (v5_arg3 m ρ c)
theorem v6_arg9 : (W6 m ρ c (Proc.devRef .tc main_arg9) : FVec Ideal S64x64 .f32) = (a9 m c) :=
  (W6_of_ne m ρ c main_arg9 (by decide)).trans (v5_arg9 m ρ c)
theorem v6_arg10 : (W6 m ρ c (Proc.devRef .tc main_arg10) : FVec Ideal S64 .f32) = (a10 m c) :=
  (W6_of_ne m ρ c main_arg10 (by decide)).trans (v5_arg10 m ρ c)
theorem v6_arg11 : (W6 m ρ c (Proc.devRef .tc main_arg11) : FVec Ideal S64 .f32) = (a11 m c) :=
  (W6_of_ne m ρ c main_arg11 (by decide)).trans (v5_arg11 m ρ c)
theorem v6_arg12 : (W6 m ρ c (Proc.devRef .tc main_arg12) : FVec Ideal S64 .f32) = (a12 m c) :=
  (W6_of_ne m ρ c main_arg12 (by decide)).trans (v5_arg12 m ρ c)
theorem v6_arg13 : (W6 m ρ c (Proc.devRef .tc main_arg13) : FVec Ideal S64 .f32) = (a13 m c) :=
  (W6_of_ne m ρ c main_arg13 (by decide)).trans (v5_arg13 m ρ c)
theorem v6_arg14 : (W6 m ρ c (Proc.devRef .tc main_arg14) : FVec Ideal S4x64 .f32) = (a14 m c) :=
  (W6_of_ne m ρ c main_arg14 (by decide)).trans (v5_arg14 m ρ c)
theorem v6_arg15 : (W6 m ρ c (Proc.devRef .tc main_arg15) : FVec Ideal S4 .f32) = (a15 m c) :=
  (W6_of_ne m ρ c main_arg15 (by decide)).trans (v5_arg15 m ρ c)
theorem v7_h2 : (W7 m ρ c (Proc.devRef .tc main_v48) : FVec Ideal S100000x64 .f32) = tH2 m c :=
  (W7_arr m ρ c 2).trans ((lin2 (V6 m ρ) c).trans (by
    show linT (F := Ideal) (W6 m ρ c (Proc.devRef .tc main_v47)) (W6 m ρ c (Proc.devRef .tc main_arg9)) = _
    rw [v6_x1 m ρ c, v6_arg9 m ρ c]))
theorem v7_v1 : (W7 m ρ c (Proc.devRef .tc main_v1) : IVec S1600000 32) = rowT (a1 m c) :=
  (W7_of_ne m ρ c main_v1 (by decide)).trans (v6_v1 m ρ c)
theorem v7_v3 : (W7 m ρ c (Proc.devRef .tc main_v3) : IVec S1600000 32) = colT (a1 m c) :=
  (W7_of_ne m ρ c main_v3 (by decide)).trans (v6_v3 m ρ c)
theorem v7_v28 : (W7 m ρ c (Proc.devRef .tc main_v28) : FVec Ideal S1600000 .f32) = tNrm m c :=
  (W7_of_ne m ρ c main_v28 (by decide)).trans (v6_v28 m ρ c)
theorem v7_arg3 : (W7 m ρ c (Proc.devRef .tc main_arg3) : IVec S100000 32) = (a3 m c) :=
  (W7_of_ne m ρ c main_arg3 (by decide)).trans (v6_arg3 m ρ c)
theorem v7_arg10 : (W7 m ρ c (Proc.devRef .tc main_arg10) : FVec Ideal S64 .f32) = (a10 m c) :=
  (W7_of_ne m ρ c main_arg10 (by decide)).trans (v6_arg10 m ρ c)
theorem v7_arg11 : (W7 m ρ c (Proc.devRef .tc main_arg11) : FVec Ideal S64 .f32) = (a11 m c) :=
  (W7_of_ne m ρ c main_arg11 (by decide)).trans (v6_arg11 m ρ c)
theorem v7_arg12 : (W7 m ρ c (Proc.devRef .tc main_arg12) : FVec Ideal S64 .f32) = (a12 m c) :=
  (W7_of_ne m ρ c main_arg12 (by decide)).trans (v6_arg12 m ρ c)
theorem v7_arg13 : (W7 m ρ c (Proc.devRef .tc main_arg13) : FVec Ideal S64 .f32) = (a13 m c) :=
  (W7_of_ne m ρ c main_arg13 (by decide)).trans (v6_arg13 m ρ c)
theorem v7_arg14 : (W7 m ρ c (Proc.devRef .tc main_arg14) : FVec Ideal S4x64 .f32) = (a14 m c) :=
  (W7_of_ne m ρ c main_arg14 (by decide)).trans (v6_arg14 m ρ c)
theorem v7_arg15 : (W7 m ρ c (Proc.devRef .tc main_arg15) : FVec Ideal S4 .f32) = (a15 m c) :=
  (W7_of_ne m ρ c main_arg15 (by decide)).trans (v6_arg15 m ρ c)
theorem v8_agg2 : (W8 m ρ c (Proc.devRef .tc main_v61) : FVec Ideal S100000x64 .f32) = tAgg2 m c :=
  (g3_agg (W7 m ρ c)).trans (by rw [v7_v1 m ρ c, v7_v3 m ρ c, v7_v28 m ρ c, v7_h2 m ρ c]; try rfl)
theorem v8_p62 : (W8 m ρ c (Proc.devRef .tc main_v62) : FVec Ideal S1x64 .f32) = shapeCast S1x64 (a12 m c) shapeCasts_S64_S1x64 :=
  (g3_p62 (W7 m ρ c)).trans (by rw [v7_arg12 m ρ c]; try rfl)
theorem v8_p63 : (W8 m ρ c (Proc.devRef .tc main_v63) : FVec Ideal S1x64 .f32) = shapeCast S1x64 (a13 m c) shapeCasts_S64_S1x64 :=
  (g3_p63 (W7 m ρ c)).trans (by rw [v7_arg13 m ρ c]; try rfl)
theorem v8_p64 : (W8 m ρ c (Proc.devRef .tc main_v64) : FVec Ideal S1x64 .f32) = shapeCast S1x64 (a10 m c) shapeCasts_S64_S1x64 :=
  (g3_p64 (W7 m ρ c)).trans (by rw [v7_arg10 m ρ c]; try rfl)
theorem v8_p65 : (W8 m ρ c (Proc.devRef .tc main_v65) : FVec Ideal S1x64 .f32) = shapeCast S1x64 (a11 m c) shapeCasts_S64_S1x64 :=
  (g3_p65 (W7 m ρ c)).trans (by rw [v7_arg11 m ρ c]; try rfl)
theorem v8_arg3 : (W8 m ρ c (Proc.devRef .tc main_arg3) : IVec S100000 32) = (a3 m c) :=
  (g3_keep_arg3 (W7 m ρ c)).trans (v7_arg3 m ρ c)
theorem v8_arg14 : (W8 m ρ c (Proc.devRef .tc main_arg14) : FVec Ideal S4x64 .f32) = (a14 m c) :=
  (g3_keep_arg14 (W7 m ρ c)).trans (v7_arg14 m ρ c)
theorem v8_arg15 : (W8 m ρ c (Proc.devRef .tc main_arg15) : FVec Ideal S4 .f32) = (a15 m c) :=
  (g3_keep_arg15 (W7 m ρ c)).trans (v7_arg15 m ρ c)
theorem v9_x2 : (W9 m ρ c (Proc.devRef .tc main_v66) : FVec Ideal S100000x64 .f32) = tX2 m c :=
  (W9_arr m ρ c 5).trans ((bn3 (V8 m ρ) c (a12 m c) (a13 m c) (a10 m c) (a11 m c) (v8_p62 m ρ c) (v8_p63 m ρ c) (v8_p64 m ρ c) (v8_p65 m ρ c)).trans (by
    show bnEluT (F := Ideal) (W8 m ρ c (Proc.devRef .tc main_v61)) _ _ _ _ = _
    rw [v8_agg2 m ρ c]))
theorem v9_arg3 : (W9 m ρ c (Proc.devRef .tc main_arg3) : IVec S100000 32) = (a3 m c) :=
  (W9_of_ne m ρ c main_arg3 (by decide)).trans (v8_arg3 m ρ c)
theorem v9_arg14 : (W9 m ρ c (Proc.devRef .tc main_arg14) : FVec Ideal S4x64 .f32) = (a14 m c) :=
  (W9_of_ne m ρ c main_arg14 (by decide)).trans (v8_arg14 m ρ c)
theorem v9_arg15 : (W9 m ρ c (Proc.devRef .tc main_arg15) : FVec Ideal S4 .f32) = (a15 m c) :=
  (W9_of_ne m ρ c main_arg15 (by decide)).trans (v8_arg15 m ρ c)
theorem v10_sums : (W10 m ρ c (Proc.devRef .tc main_v69) : FVec Ideal S1024x64 .f32) = tSums m c :=
  (g4_sums (W9 m ρ c)).trans (by rw [v9_arg3 m ρ c, v9_x2 m ρ c]; try rfl)
theorem v10_cnt : (W10 m ρ c (Proc.devRef .tc main_v74) : FVec Ideal S1024x1 .f32) = shapeCast S1024x1 (cntT (F := Ideal) (a3 m c)) shapeCasts_S1024_S1024x1 :=
  (g4_cnt (W9 m ρ c)).trans (by rw [v9_arg3 m ρ c]; try rfl)
theorem v10_lnb : (W10 m ρ c (Proc.devRef .tc main_v75) : FVec Ideal S1x4 .f32) = shapeCast S1x4 (a15 m c) shapeCasts_S4_S1x4 :=
  (g4_lnb (W9 m ρ c)).trans (by rw [v9_arg15 m ρ c]; try rfl)
theorem v10_arg14 : (W10 m ρ c (Proc.devRef .tc main_arg14) : FVec Ideal S4x64 .f32) = (a14 m c) :=
  (g4_keep_arg14 (W9 m ρ c)).trans (v9_arg14 m ρ c)

/-- The result array after the last region is the network of the argument arrays. -/
theorem out_eq : (W11 m ρ c (Proc.devRef .tc main_v76) : FVec Ideal S1024x4 .f32) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (W11_arr m ρ c 4).trans ((pool4 (V10 m ρ) c (cntT (F := Ideal) (a3 m c)) (a15 m c) (v10_cnt m ρ c) (v10_lnb m ρ c)).trans (by
    show poolT (F := Ideal) (W10 m ρ c (Proc.devRef .tc main_v69)) _ (W10 m ρ c (Proc.devRef .tc main_arg14)) _ = _
    rw [v10_sums m ρ c, v10_arg14 m ρ c]
    exact tOut_eq m c))

end Cert.KernelIdeal.Hand

end
-- ==== Proof.RefOpsTable.lean ====
/-
  The reference program's entry point as nine lists of its host operations, in order, cut where the network's stages cut:
  every statement is one list element, a call of a module-local function is the callee's operations over the call's buffer
  record. Beside each list, the references its operations write.
-/
import proofs.«171306_j22711787061812_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 19 operations: the weighted in-degree and its inverse square root (the two rows of the edge table, the scatter-add, the guarded rsqrt). -/
abbrev R0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x0DA24260#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v6 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v8 : StableHlo.TRef sig ⟨S100000, .i1⟩) (.of main_v11 : StableHlo.TRef sig ⟨S100000, .f32⟩) main_call0.v1 main_call0.v2 select ]

/-- The references the operations of R0 write, in order. -/
abbrev W0 : List (Ref sig .tc) :=
  [main_v0, main_v1, main_v2, main_v3, main_cst, main_v4, main_v5, main_v6, main_cst_0, main_v7, main_v8, main_cst_1, main_v9, main_v10, main_v11, main_cst_2, main_call0_v0, main_call0_v1, main_v12]

/-- 20 operations: the symmetric edge normalisation dis[row] · weight · dis[col]. -/
abbrev R1 : List (HloOp τ sig (Elt F)) :=
  [ StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_v12 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v19 main_arg2 main_v20 (mulf : (⟨S1600000, .f32⟩ : BufTy).Contents (Elt F) → (⟨S1600000, .f32⟩ : BufTy).Contents (Elt F) → (⟨S1600000, .f32⟩ : BufTy).Contents (Elt F)),
    StableHlo.nullary main_c_4 (constantI S_ 32 0#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v23 (broadcastInDim S1600000 ![] bcast_S_S1600000 : (⟨S_, .i32⟩ : BufTy).Contents (Elt F) → (⟨S1600000, .i32⟩ : BufTy).Contents (Elt F)),
    StableHlo.binary main_v3 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v12 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v27 main_v28 (mulf : (⟨S1600000, .f32⟩ : BufTy).Contents (Elt F) → (⟨S1600000, .f32⟩ : BufTy).Contents (Elt F) → (⟨S1600000, .f32⟩ : BufTy).Contents (Elt F)) ]

/-- The references the operations of R1 write, in order. -/
abbrev W1 : List (Ref sig .tc) :=
  [main_c, main_v13, main_v14, main_c_3, main_v15, main_v16, main_v17, main_v18, main_v19, main_v20, main_c_4, main_v21, main_v22, main_c_5, main_v23, main_v24, main_v25, main_v26, main_v27, main_v28]

/-- 22 operations: layer 1: the dense projection, the gather along the edges, the weighting and the scatter-add. -/
abbrev R2 : List (HloOp τ sig (Elt F)) :=
  [ StableHlo.unary main_arg4 main_v29 ((transpose S64x64 [1, 0] · transposes_S64x64_S64x64_1_0) : (⟨S64x64, .f32⟩ : BufTy).Contents (Elt F) → (⟨S64x64, .f32⟩ : BufTy).Contents (Elt F)),
    StableHlo.binary main_arg0 main_v29 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg1 main_v31 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v31 main_v32 rfl shapeCasts_S1x1600000_S1600000,
    StableHlo.unary main_arg1 main_v33 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v33 main_v34 rfl shapeCasts_S1x1600000_S1600000,
    StableHlo.unary main_v28 main_v35 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v36 (broadcastInDim S1600000 ![] bcast_S_S1600000 : (⟨S_, .i32⟩ : BufTy).Contents (Elt F) → (⟨S1600000, .i32⟩ : BufTy).Contents (Elt F)),
    StableHlo.binary main_v32 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v38 (broadcastInDim S1600000 ![] bcast_S_S1600000 : (⟨S_, .i32⟩ : BufTy).Contents (Elt F) → (⟨S1600000, .i32⟩ : BufTy).Contents (Elt F)),
    StableHlo.binary main_v32 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v32 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v30 main_v41 main_v42 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v35 main_v43 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v43 main_v42 main_v44 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v45 (broadcastInDim S100000x64 ![] bcast_S_S100000x64 : (⟨S_, .f32⟩ : BufTy).Contents (Elt F) → (⟨S100000x64, .f32⟩ : BufTy).Contents (Elt F)),
    StableHlo.unary main_v34 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The references the operations of R2 write, in order. -/
abbrev W2 : List (Ref sig .tc) :=
  [main_v29, main_v30, main_v31, main_v32, main_v33, main_v34, main_v35, main_c_6, main_v36, main_v37, main_c_7, main_v38, main_v39, main_v40, main_v41, main_v42, main_v43, main_v44, main_cst_8, main_v45, main_v46, main_v47]

/-- 1 operation: layer 1: the running mean as a row. -/
abbrev R3 : List (HloOp τ sig (Elt F)) :=
  [ StableHlo.unary main_arg7 main_v48 (broadcastInDim S1x64 ![1] bcast_S64_S1x64_1 : (⟨S64, .f32⟩ : BufTy).Contents (Elt F) → (⟨S1x64, .f32⟩ : BufTy).Contents (Elt F)) ]

/-- The references the operations of R3 write, in order. -/
abbrev W3 : List (Ref sig .tc) :=
  [main_v48]

/-- 30 operations: layer 1: the batch normalisation and the ELU. -/
abbrev R4 : List (HloOp τ sig (Elt F)) :=
  [ StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (subf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3727C5AC#32),
    StableHlo.unary main_cst_9 main_v51 (broadcastInDim S64 ![] bcast_S_S64 : (⟨S_, .f32⟩ : BufTy).Contents (Elt F) → (⟨S64, .f32⟩ : BufTy).Contents (Elt F)),
    StableHlo.binary main_arg8 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v55 main_v56 (mulf : (⟨S100000x64, .f32⟩ : BufTy).Contents (Elt F) → (⟨S100000x64, .f32⟩ : BufTy).Contents (Elt F) → (⟨S100000x64, .f32⟩ : BufTy).Contents (Elt F)),
    StableHlo.unary main_arg5 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v58 main_v59 (mulf : (⟨S100000x64, .f32⟩ : BufTy).Contents (Elt F) → (⟨S100000x64, .f32⟩ : BufTy).Contents (Elt F) → (⟨S100000x64, .f32⟩ : BufTy).Contents (Elt F)),
    StableHlo.unary main_arg6 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v61 main_v62 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v62 : StableHlo.TRef sig ⟨S100000x64, .f32⟩) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v62 : StableHlo.TRef sig ⟨S100000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v62 : StableHlo.TRef sig ⟨S100000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v62 : StableHlo.TRef sig ⟨S100000x64, .f32⟩) main_call1.v7 main_call1.call1.v0 select ]

/-- The references the operations of R4 write, in order. -/
abbrev W4 : List (Ref sig .tc) :=
  [main_v49, main_v50, main_cst_9, main_v51, main_v52, main_v53, main_v54, main_v55, main_v56, main_v57, main_v58, main_v59, main_v60, main_v61, main_v62, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v63]

/-- 22 operations: layer 2: the dense projection, the gather along the edges, the weighting and the scatter-add. -/
abbrev R5 : List (HloOp τ sig (Elt F)) :=
  [ StableHlo.unary main_arg9 main_v64 ((transpose S64x64 [1, 0] · transposes_S64x64_S64x64_1_0) : (⟨S64x64, .f32⟩ : BufTy).Contents (Elt F) → (⟨S64x64, .f32⟩ : BufTy).Contents (Elt F)),
    StableHlo.binary main_v63 main_v64 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg1 main_v66 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v66 main_v67 rfl shapeCasts_S1x1600000_S1600000,
    StableHlo.unary main_arg1 main_v68 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v68 main_v69 rfl shapeCasts_S1x1600000_S1600000,
    StableHlo.unary main_v28 main_v70 (broadcastInDim S1600000x1 ![0] bcast_S1600000_S1600000x1_0 : (⟨S1600000, .f32⟩ : BufTy).Contents (Elt F) → (⟨S1600000x1, .f32⟩ : BufTy).Contents (Elt F)),
    StableHlo.nullary main_c_10 (constantI S_ 32 0#32),
    StableHlo.unary main_c_10 main_v71 (broadcastInDim S1600000 ![] bcast_S_S1600000 : (⟨S_, .i32⟩ : BufTy).Contents (Elt F) → (⟨S1600000, .i32⟩ : BufTy).Contents (Elt F)),
    StableHlo.binary main_v67 main_v71 main_v72 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v73 (broadcastInDim S1600000 ![] bcast_S_S1600000 : (⟨S_, .i32⟩ : BufTy).Contents (Elt F) → (⟨S1600000, .i32⟩ : BufTy).Contents (Elt F)),
    StableHlo.binary main_v67 main_v73 main_v74 (addi : (⟨S1600000, .i32⟩ : BufTy).Contents (Elt F) → (⟨S1600000, .i32⟩ : BufTy).Contents (Elt F) → (⟨S1600000, .i32⟩ : BufTy).Contents (Elt F)),
    StableHlo.ternary main_v72 main_v74 main_v67 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v75 main_v76 (broadcastInDim S1600000x1 ![0] bcast_S1600000_S1600000x1_0 : (⟨S1600000, .i32⟩ : BufTy).Contents (Elt F) → (⟨S1600000x1, .i32⟩ : BufTy).Contents (Elt F)),
    StableHlo.binary main_v65 main_v76 main_v77 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v70 main_v78 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v78 main_v77 main_v79 (mulf : (⟨S1600000x64, .f32⟩ : BufTy).Contents (Elt F) → (⟨S1600000x64, .f32⟩ : BufTy).Contents (Elt F) → (⟨S1600000x64, .f32⟩ : BufTy).Contents (Elt F)),
    StableHlo.nullary main_cst_12 (constant S_ .f32 0x00000000#32),
    StableHlo.unary main_cst_12 main_v80 (broadcastInDim S100000x64 ![] bcast_S_S100000x64 : (⟨S_, .f32⟩ : BufTy).Contents (Elt F) → (⟨S100000x64, .f32⟩ : BufTy).Contents (Elt F)),
    StableHlo.unary main_v69 main_v81 (broadcastInDim S1600000x1 ![0] bcast_S1600000_S1600000x1_0 : (⟨S1600000, .i32⟩ : BufTy).Contents (Elt F) → (⟨S1600000x1, .i32⟩ : BufTy).Contents (Elt F)),
    StableHlo.ternary main_v80 main_v81 main_v79 main_v82 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The references the operations of R5 write, in order. -/
abbrev W5 : List (Ref sig .tc) :=
  [main_v64, main_v65, main_v66, main_v67, main_v68, main_v69, main_v70, main_c_10, main_v71, main_v72, main_c_11, main_v73, main_v74, main_v75, main_v76, main_v77, main_v78, main_v79, main_cst_12, main_v80, main_v81, main_v82]

/-- 31 operations: layer 2: the batch normalisation and the ELU. -/
abbrev R6 : List (HloOp τ sig (Elt F)) :=
  [ StableHlo.unary main_arg12 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v86 (broadcastInDim S64 ![] bcast_S_S64 : (⟨S_, .f32⟩ : BufTy).Contents (Elt F) → (⟨S64, .f32⟩ : BufTy).Contents (Elt F)),
    StableHlo.binary main_arg13 main_v86 main_v87 (addf : (⟨S64, .f32⟩ : BufTy).Contents (Elt F) → (⟨S64, .f32⟩ : BufTy).Contents (Elt F) → (⟨S64, .f32⟩ : BufTy).Contents (Elt F)),
    StableHlo.unary main_v87 main_v88 (Host.rsqrt : (⟨S64, .f32⟩ : BufTy).Contents (Elt F) → (⟨S64, .f32⟩ : BufTy).Contents (Elt F)),
    StableHlo.unary main_v88 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S100000x64 ![0, 1] bcast_S1x64_S100000x64_0_1 : (⟨S1x64, .f32⟩ : BufTy).Contents (Elt F) → (⟨S100000x64, .f32⟩ : BufTy).Contents (Elt F)),
    StableHlo.binary main_v85 main_v90 main_v91 (mulf : (⟨S100000x64, .f32⟩ : BufTy).Contents (Elt F) → (⟨S100000x64, .f32⟩ : BufTy).Contents (Elt F) → (⟨S100000x64, .f32⟩ : BufTy).Contents (Elt F)),
    StableHlo.unary main_arg10 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S100000x64 ![0, 1] bcast_S1x64_S100000x64_0_1 : (⟨S1x64, .f32⟩ : BufTy).Contents (Elt F) → (⟨S100000x64, .f32⟩ : BufTy).Contents (Elt F)),
    StableHlo.binary main_v91 main_v93 main_v94 (mulf : (⟨S100000x64, .f32⟩ : BufTy).Contents (Elt F) → (⟨S100000x64, .f32⟩ : BufTy).Contents (Elt F) → (⟨S100000x64, .f32⟩ : BufTy).Contents (Elt F)),
    StableHlo.unary main_arg11 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v96 main_v97 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v97 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v97 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v97 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v97 : StableHlo.TRef sig ⟨S100000x64, .f32⟩) main_call2.v7 main_call2.call1.v0 select ]

/-- The references the operations of R6 write, in order. -/
abbrev W6 : List (Ref sig .tc) :=
  [main_v83, main_v84, main_v85, main_cst_13, main_v86, main_v87, main_v88, main_v89, main_v90, main_v91, main_v92, main_v93, main_v94, main_v95, main_v96, main_v97, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v98]

/-- 5 operations: the per-graph feature sums, and the scalar one. -/
abbrev R7 : List (HloOp τ sig (Elt F)) :=
  [ StableHlo.nullary main_cst_14 (constant S_ .f32 0x00000000#32),
    StableHlo.unary main_cst_14 main_v99 (broadcastInDim S1024x64 ![] bcast_S_S1024x64 : (⟨S_, .f32⟩ : BufTy).Contents (Elt F) → (⟨S1024x64, .f32⟩ : BufTy).Contents (Elt F)),
    StableHlo.unary main_arg3 main_v100 (broadcastInDim S100000x1 ![0] bcast_S100000_S100000x1_0 : (⟨S100000, .i32⟩ : BufTy).Contents (Elt F) → (⟨S100000x1, .i32⟩ : BufTy).Contents (Elt F)),
    StableHlo.ternary main_v99 main_v100 main_v98 main_v101 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    StableHlo.nullary main_cst_15 (constant S_ .f32 0x3F800000#32) ]

/-- The references the operations of R7 write, in order. -/
abbrev W7 : List (Ref sig .tc) :=
  [main_cst_14, main_v99, main_v100, main_v101, main_cst_15]

/-- 16 operations: the per-graph counts, the mean pooling and the classifier. -/
abbrev R8 : List (HloOp τ sig (Elt F)) :=
  [ StableHlo.unary main_cst_15 main_v102 (broadcastInDim S100000 ![] bcast_S_S100000 : (⟨S_, .f32⟩ : BufTy).Contents (Elt F) → (⟨S100000, .f32⟩ : BufTy).Contents (Elt F)),
    StableHlo.nullary main_cst_16 (constant S_ .f32 0x00000000#32),
    StableHlo.unary main_cst_16 main_v103 (broadcastInDim S1024 ![] bcast_S_S1024 : (⟨S_, .f32⟩ : BufTy).Contents (Elt F) → (⟨S1024, .f32⟩ : BufTy).Contents (Elt F)),
    StableHlo.unary main_arg3 main_v104 (broadcastInDim S100000x1 ![0] bcast_S100000_S100000x1_0 : (⟨S100000, .i32⟩ : BufTy).Contents (Elt F) → (⟨S100000x1, .i32⟩ : BufTy).Contents (Elt F)),
    StableHlo.ternary main_v103 main_v104 main_v102 main_v105 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    StableHlo.nullary main_cst_17 (constant S_ .f32 0x3F800000#32),
    StableHlo.unary main_cst_17 main_v106 (broadcastInDim S1024 ![] bcast_S_S1024 : (⟨S_, .f32⟩ : BufTy).Contents (Elt F) → (⟨S1024, .f32⟩ : BufTy).Contents (Elt F)),
    StableHlo.binary main_v105 main_v106 main_v107 (maximumf : (⟨S1024, .f32⟩ : BufTy).Contents (Elt F) → (⟨S1024, .f32⟩ : BufTy).Contents (Elt F) → (⟨S1024, .f32⟩ : BufTy).Contents (Elt F)),
    StableHlo.unary main_v107 main_v108 (broadcastInDim S1024x1 ![0] bcast_S1024_S1024x1_0 : (⟨S1024, .f32⟩ : BufTy).Contents (Elt F) → (⟨S1024x1, .f32⟩ : BufTy).Contents (Elt F)),
    StableHlo.unary main_v108 main_v109 (broadcastInDim S1024x64 ![0, 1] bcast_S1024x1_S1024x64_0_1 : (⟨S1024x1, .f32⟩ : BufTy).Contents (Elt F) → (⟨S1024x64, .f32⟩ : BufTy).Contents (Elt F)),
    StableHlo.binary main_v101 main_v109 main_v110 (Host.divf : (⟨S1024x64, .f32⟩ : BufTy).Contents (Elt F) → (⟨S1024x64, .f32⟩ : BufTy).Contents (Elt F) → (⟨S1024x64, .f32⟩ : BufTy).Contents (Elt F)),
    StableHlo.unary main_arg14 main_v111 ((transpose S64x4 [1, 0] · transposes_S4x64_S64x4_1_0) : (⟨S4x64, .f32⟩ : BufTy).Contents (Elt F) → (⟨S64x4, .f32⟩ : BufTy).Contents (Elt F)),
    StableHlo.binary main_v110 main_v111 main_v112 ((fun l r => Host.dotGeneral dot_S1024x64_S64x4_S1024x4_1_0_0_1_n_n none l r) : (⟨S1024x64, .f32⟩ : BufTy).Contents (Elt F) → (⟨S64x4, .f32⟩ : BufTy).Contents (Elt F) → (⟨S1024x4, .f32⟩ : BufTy).Contents (Elt F)),
    StableHlo.unary main_arg15 main_v113 (broadcastInDim S1x4 ![1] bcast_S4_S1x4_1 : (⟨S4, .f32⟩ : BufTy).Contents (Elt F) → (⟨S1x4, .f32⟩ : BufTy).Contents (Elt F)),
    StableHlo.unary main_v113 main_v114 (broadcastInDim S1024x4 ![0, 1] bcast_S1x4_S1024x4_0_1 : (⟨S1x4, .f32⟩ : BufTy).Contents (Elt F) → (⟨S1024x4, .f32⟩ : BufTy).Contents (Elt F)),
    StableHlo.binary main_v112 main_v114 main_v115 (addf : (⟨S1024x4, .f32⟩ : BufTy).Contents (Elt F) → (⟨S1024x4, .f32⟩ : BufTy).Contents (Elt F) → (⟨S1024x4, .f32⟩ : BufTy).Contents (Elt F)) ]

/-- The references the operations of R8 write, in order. -/
abbrev W8 : List (Ref sig .tc) :=
  [main_v102, main_cst_16, main_v103, main_v104, main_v105, main_cst_17, main_v106, main_v107, main_v108, main_v109, main_v110, main_v111, main_v112, main_v113, main_v114, main_v115]

end Cert.ReferenceIdeal.Hand

end
-- ==== Proof.RefOps.lean ====
/-
  The side conditions of the reference program's operation lists, and the entry point as their straight line: that every
  operation touches TensorCore references only, writes a reference of its list's written references, and determines its
  result; the entry point's three parts are the lists in order; the fold over the whole line is read list by list, and a
  reference a list does not write keeps its contents.
-/
import proofs.«171306_j22711787061812_1_alg».proof.Proof.RefOpsTable

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Side conditions of the lists -/

/-- A reference of a list is, as a device buffer, in the list's image. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem R0_sub : (R0 : List (HloOp τ sig (Elt F))).Forall fun op => op.bufs ⊆ tcRefs τ sig := by
  simp only [List.Forall, nullary_bufs_sub, unary_bufs_sub, binary_bufs_sub, ternary_bufs_sub, reshape_bufs_sub, and_self]

theorem R0_writes : (R0 : List (HloOp τ sig (Elt F))).Forall fun op => op.writes ⊆ (W0.map (Proc.devRef (τ := τ) .tc)).toFinset := by
  repeat' constructor
  all_goals exact wsub (by decide)

theorem R0_fresh : ∀ op ∈ (R0 : List (HloOp τ sig (Elt F))), op.fresh = ∅ := by
  intro _ h; (repeat (cases h with | head => rfl | tail _ h => ?_)); exact nomatch h

theorem R1_sub : (R1 : List (HloOp τ sig (Elt F))).Forall fun op => op.bufs ⊆ tcRefs τ sig := by
  simp only [List.Forall, nullary_bufs_sub, unary_bufs_sub, binary_bufs_sub, ternary_bufs_sub, reshape_bufs_sub, and_self]

theorem R1_writes : (R1 : List (HloOp τ sig (Elt F))).Forall fun op => op.writes ⊆ (W1.map (Proc.devRef (τ := τ) .tc)).toFinset := by
  repeat' constructor
  all_goals exact wsub (by decide)

theorem R1_fresh : ∀ op ∈ (R1 : List (HloOp τ sig (Elt F))), op.fresh = ∅ := by
  intro _ h; (repeat (cases h with | head => rfl | tail _ h => ?_)); exact nomatch h

theorem R2_sub : (R2 : List (HloOp τ sig (Elt F))).Forall fun op => op.bufs ⊆ tcRefs τ sig := by
  simp only [List.Forall, nullary_bufs_sub, unary_bufs_sub, binary_bufs_sub, ternary_bufs_sub, reshape_bufs_sub, and_self]

theorem R2_writes : (R2 : List (HloOp τ sig (Elt F))).Forall fun op => op.writes ⊆ (W2.map (Proc.devRef (τ := τ) .tc)).toFinset := by
  repeat' constructor
  all_goals exact wsub (by decide)

theorem R2_fresh : ∀ op ∈ (R2 : List (HloOp τ sig (Elt F))), op.fresh = ∅ := by
  intro _ h; (repeat (cases h with | head => rfl | tail _ h => ?_)); exact nomatch h

theorem R3_sub : (R3 : List (HloOp τ sig (Elt F))).Forall fun op => op.bufs ⊆ tcRefs τ sig := by
  simp only [List.Forall, nullary_bufs_sub, unary_bufs_sub, binary_bufs_sub, ternary_bufs_sub, reshape_bufs_sub, and_self]

theorem R3_writes : (R3 : List (HloOp τ sig (Elt F))).Forall fun op => op.writes ⊆ (W3.map (Proc.devRef (τ := τ) .tc)).toFinset := by
  repeat' constructor
  all_goals exact wsub (by decide)

theorem R3_fresh : ∀ op ∈ (R3 : List (HloOp τ sig (Elt F))), op.fresh = ∅ := by
  intro _ h; (repeat (cases h with | head => rfl | tail _ h => ?_)); exact nomatch h

theorem R4_sub : (R4 : List (HloOp τ sig (Elt F))).Forall fun op => op.bufs ⊆ tcRefs τ sig := by
  simp only [List.Forall, nullary_bufs_sub, unary_bufs_sub, binary_bufs_sub, ternary_bufs_sub, reshape_bufs_sub, and_self]

theorem R4_writes : (R4 : List (HloOp τ sig (Elt F))).Forall fun op => op.writes ⊆ (W4.map (Proc.devRef (τ := τ) .tc)).toFinset := by
  repeat' constructor
  all_goals exact wsub (by decide)

theorem R4_fresh : ∀ op ∈ (R4 : List (HloOp τ sig (Elt F))), op.fresh = ∅ := by
  intro _ h; (repeat (cases h with | head => rfl | tail _ h => ?_)); exact nomatch h

theorem R5_sub : (R5 : List (HloOp τ sig (Elt F))).Forall fun op => op.bufs ⊆ tcRefs τ sig := by
  simp only [List.Forall, nullary_bufs_sub, unary_bufs_sub, binary_bufs_sub, ternary_bufs_sub, reshape_bufs_sub, and_self]

theorem R5_writes : (R5 : List (HloOp τ sig (Elt F))).Forall fun op => op.writes ⊆ (W5.map (Proc.devRef (τ := τ) .tc)).toFinset := by
  repeat' constructor
  all_goals exact wsub (by decide)

theorem R5_fresh : ∀ op ∈ (R5 : List (HloOp τ sig (Elt F))), op.fresh = ∅ := by
  intro _ h; (repeat (cases h with | head => rfl | tail _ h => ?_)); exact nomatch h

theorem R6_sub : (R6 : List (HloOp τ sig (Elt F))).Forall fun op => op.bufs ⊆ tcRefs τ sig := by
  simp only [List.Forall, nullary_bufs_sub, unary_bufs_sub, binary_bufs_sub, ternary_bufs_sub, reshape_bufs_sub, and_self]

theorem R6_writes : (R6 : List (HloOp τ sig (Elt F))).Forall fun op => op.writes ⊆ (W6.map (Proc.devRef (τ := τ) .tc)).toFinset := by
  repeat' constructor
  all_goals exact wsub (by decide)

theorem R6_fresh : ∀ op ∈ (R6 : List (HloOp τ sig (Elt F))), op.fresh = ∅ := by
  intro _ h; (repeat (cases h with | head => rfl | tail _ h => ?_)); exact nomatch h

theorem R7_sub : (R7 : List (HloOp τ sig (Elt F))).Forall fun op => op.bufs ⊆ tcRefs τ sig := by
  simp only [List.Forall, nullary_bufs_sub, unary_bufs_sub, binary_bufs_sub, ternary_bufs_sub, reshape_bufs_sub, and_self]

theorem R7_writes : (R7 : List (HloOp τ sig (Elt F))).Forall fun op => op.writes ⊆ (W7.map (Proc.devRef (τ := τ) .tc)).toFinset := by
  repeat' constructor
  all_goals exact wsub (by decide)

theorem R7_fresh : ∀ op ∈ (R7 : List (HloOp τ sig (Elt F))), op.fresh = ∅ := by
  intro _ h; (repeat (cases h with | head => rfl | tail _ h => ?_)); exact nomatch h

theorem R8_sub : (R8 : List (HloOp τ sig (Elt F))).Forall fun op => op.bufs ⊆ tcRefs τ sig := by
  simp only [List.Forall, nullary_bufs_sub, unary_bufs_sub, binary_bufs_sub, ternary_bufs_sub, reshape_bufs_sub, and_self]

theorem R8_writes : (R8 : List (HloOp τ sig (Elt F))).Forall fun op => op.writes ⊆ (W8.map (Proc.devRef (τ := τ) .tc)).toFinset := by
  repeat' constructor
  all_goals exact wsub (by decide)

theorem R8_fresh : ∀ op ∈ (R8 : List (HloOp τ sig (Elt F))), op.fresh = ∅ := by
  intro _ h; (repeat (cases h with | head => rfl | tail _ h => ?_)); exact nomatch h

/-! ## The entry point is the straight line of the lists -/

set_option maxRecDepth 8192 in
/-- The first part of the entry point is the first four lists in order (the call of the guarded select unfolded at its record). -/
theorem part0_eq (c : Dev nD) : main_part0 (F := F) c = seq (R0 ++ R1 ++ R2 ++ R3) := by
  simp only [main_part0, fn_where.body, R0, R1, R2, R3, List.cons_append, List.nil_append, seq, bind_assoc, pure_bind]
  rfl

set_option maxRecDepth 8192 in
/-- The second part is the next four lists in order (each ELU unfolded at its record, its two selects inside it). -/
theorem part1_eq (c : Dev nD) : main_part1 (F := F) c = seq (R4 ++ R5 ++ R6 ++ R7) := by
  simp only [main_part1, fn_elu.body, fn_where_0.body, fn_where_1.body, R4, R5, R6, R7, List.cons_append, List.nil_append, seq,
    bind_assoc, pure_bind]
  rfl

set_option maxRecDepth 8192 in
/-- The last part is the last list. -/
theorem part2_eq (c : Dev nD) : main_part2 (F := F) c = seq R8 := by
  simp only [main_part2, R8, seq, bind_assoc, pure_bind]

/-- All the operations of the entry point, in order. -/
abbrev ops : List (HloOp τ sig (Elt F)) := (R0 ++ R1 ++ R2 ++ R3) ++ ((R4 ++ R5 ++ R6 ++ R7) ++ R8)

/-- The entry point is the straight line of all the operations: its three parts one after the other. -/
theorem main_eq (c : Dev nD) : main (F := F) c = seq ops := by
  rw [ops, seq_append (R0 ++ R1 ++ R2 ++ R3) _, seq_append (R4 ++ R5 ++ R6 ++ R7) R8, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append (forall_append R0_sub R1_sub) R2_sub) R3_sub)
    (forall_append (forall_append (forall_append (forall_append R4_sub R5_sub) R6_sub) R7_sub) R8_sub)

/-- Two lists whose operations determine their results: so do the concatenation's. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

theorem ops_fresh : ∀ op ∈ (ops : List (HloOp τ sig (Elt F))), op.fresh = ∅ :=
  fresh_append (fresh_append (fresh_append (fresh_append R0_fresh R1_fresh) R2_fresh) R3_fresh)
    (fresh_append (fresh_append (fresh_append (fresh_append R4_fresh R5_fresh) R6_fresh) R7_fresh) R8_fresh)

/-! ## Reading the fold list by list -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A reference the list R0 does not write keeps its contents. -/
theorem R0_frame (V : Valuation τ sig (Elt F)) {r : Ref sig .tc} (hr : r ∉ W0) :
    after R0 V (Proc.devRef .tc r) = V (Proc.devRef .tc r) :=
  after_of_writes_sub R0 V R0_writes hr

/-- A reference the list R1 does not write keeps its contents. -/
theorem R1_frame (V : Valuation τ sig (Elt F)) {r : Ref sig .tc} (hr : r ∉ W1) :
    after R1 V (Proc.devRef .tc r) = V (Proc.devRef .tc r) :=
  after_of_writes_sub R1 V R1_writes hr

/-- A reference the list R2 does not write keeps its contents. -/
theorem R2_frame (V : Valuation τ sig (Elt F)) {r : Ref sig .tc} (hr : r ∉ W2) :
    after R2 V (Proc.devRef .tc r) = V (Proc.devRef .tc r) :=
  after_of_writes_sub R2 V R2_writes hr

/-- A reference the list R3 does not write keeps its contents. -/
theorem R3_frame (V : Valuation τ sig (Elt F)) {r : Ref sig .tc} (hr : r ∉ W3) :
    after R3 V (Proc.devRef .tc r) = V (Proc.devRef .tc r) :=
  after_of_writes_sub R3 V R3_writes hr

/-- A reference the list R4 does not write keeps its contents. -/
theorem R4_frame (V : Valuation τ sig (Elt F)) {r : Ref sig .tc} (hr : r ∉ W4) :
    after R4 V (Proc.devRef .tc r) = V (Proc.devRef .tc r) :=
  after_of_writes_sub R4 V R4_writes hr

/-- A reference the list R5 does not write keeps its contents. -/
theorem R5_frame (V : Valuation τ sig (Elt F)) {r : Ref sig .tc} (hr : r ∉ W5) :
    after R5 V (Proc.devRef .tc r) = V (Proc.devRef .tc r) :=
  after_of_writes_sub R5 V R5_writes hr

/-- A reference the list R6 does not write keeps its contents. -/
theorem R6_frame (V : Valuation τ sig (Elt F)) {r : Ref sig .tc} (hr : r ∉ W6) :
    after R6 V (Proc.devRef .tc r) = V (Proc.devRef .tc r) :=
  after_of_writes_sub R6 V R6_writes hr

/-- A reference the list R7 does not write keeps its contents. -/
theorem R7_frame (V : Valuation τ sig (Elt F)) {r : Ref sig .tc} (hr : r ∉ W7) :
    after R7 V (Proc.devRef .tc r) = V (Proc.devRef .tc r) :=
  after_of_writes_sub R7 V R7_writes hr

/-- A reference the list R8 does not write keeps its contents. -/
theorem R8_frame (V : Valuation τ sig (Elt F)) {r : Ref sig .tc} (hr : r ∉ W8) :
    after R8 V (Proc.devRef .tc r) = V (Proc.devRef .tc r) :=
  after_of_writes_sub R8 V R8_writes hr

/-- A reference no list writes keeps its contents through the whole line. -/
theorem ops_frame (V : Valuation τ sig (Elt F)) {r : Ref sig .tc} (h0 : r ∉ W0) (h1 : r ∉ W1) (h2 : r ∉ W2) (h3 : r ∉ W3) (h4 : r ∉ W4)
    (h5 : r ∉ W5) (h6 : r ∉ W6) (h7 : r ∉ W7) (h8 : r ∉ W8) :
    after ops V (Proc.devRef .tc r) = V (Proc.devRef .tc r) := by
  simp only [ops, after_append]
  rw [R8_frame _ h8, R7_frame _ h7, R6_frame _ h6, R5_frame _ h5, R4_frame _ h4, R3_frame _ h3, R2_frame _ h2, R1_frame _ h1, R0_frame _ h0]

end Cert.ReferenceIdeal.Hand

end
-- ==== Proof.RefRun.lean ====
/-
  The run of the reference program read back as one function of its arguments. Each stage of the network is one or two
  of the operation lists: from any contents, the stage's result buffer ends at the stage's function of the contents of
  the buffers it reads (the fold unrolled, each operation's result read at its own buffer, every other buffer kept). The
  stages composed along the line give the whole network at the output buffer, the arguments unchanged; the run of the
  straight line then says every weakly fair execution terminates there.
-/
import proofs.«171306_j22711787061812_1_alg».proof.Proof.RefOps
import proofs.«171306_j22711787061812_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

attribute [local irreducible] Host.gather Host.scatterAdd Host.rsqrt Host.expm1 Host.divf in
set_option maxRecDepth 8192 in
set_option maxHeartbeats 1000000 in
/-- The edge normalisation: the first two lists leave dis[row] · weight · dis[col] of the edge table and the weights. -/
theorem nrm_eq (W : Valuation τ sig (Elt F)) :
    after R1 (after R0 W) (main_v28 : DevRef τ sig)
      = Cert.Spec.nrmT (W (main_arg1 : DevRef τ sig)) (W (main_arg2 : DevRef τ sig)) := by
  dsimp only [R0, R1]
  after_results_simp
  rfl

attribute [local irreducible] Host.gather Host.scatterAdd Host.rsqrt Host.expm1 Host.divf in
set_option maxRecDepth 8192 in
set_option maxHeartbeats 1000000 in
/-- Layer 1's projection and neighbourhood sum, from the features, the weight matrix, the edge table and the normalisation. -/
theorem agg1_eq (W : Valuation τ sig (Elt F)) :
    after R2 W (main_v47 : DevRef τ sig)
      = Cert.Spec.aggT (Cert.Spec.rowT (W (main_arg1 : DevRef τ sig))) (Cert.Spec.colT (W (main_arg1 : DevRef τ sig)))
          (W (main_v28 : DevRef τ sig)) (Cert.Spec.linT (W (main_arg0 : DevRef τ sig)) (W (main_arg4 : DevRef τ sig))) := by
  dsimp only [R2]
  after_results_simp
  rfl

attribute [local irreducible] Host.gather Host.scatterAdd Host.rsqrt Host.expm1 Host.divf in
set_option maxRecDepth 8192 in
set_option maxHeartbeats 1000000 in
/-- Layer 1's batch normalisation and ELU of the neighbourhood sum. -/
theorem bn1_eq (W : Valuation τ sig (Elt F)) :
    after R4 (after R3 W) (main_v63 : DevRef τ sig)
      = Cert.Spec.bnEluT (W (main_v47 : DevRef τ sig)) (W (main_arg7 : DevRef τ sig)) (W (main_arg8 : DevRef τ sig))
          (W (main_arg5 : DevRef τ sig)) (W (main_arg6 : DevRef τ sig)) := by
  dsimp only [R3, R4]
  after_results_simp
  rfl

attribute [local irreducible] Host.gather Host.scatterAdd Host.rsqrt Host.expm1 Host.divf in
set_option maxRecDepth 8192 in
set_option maxHeartbeats 1000000 in
/-- Layer 2's projection and neighbourhood sum, from layer 1's output. -/
theorem agg2_eq (W : Valuation τ sig (Elt F)) :
    after R5 W (main_v82 : DevRef τ sig)
      = Cert.Spec.aggT (Cert.Spec.rowT (W (main_arg1 : DevRef τ sig))) (Cert.Spec.colT (W (main_arg1 : DevRef τ sig)))
          (W (main_v28 : DevRef τ sig)) (Cert.Spec.linT (W (main_v63 : DevRef τ sig)) (W (main_arg9 : DevRef τ sig))) := by
  dsimp only [R5]
  after_results_simp
  rfl

attribute [local irreducible] Host.gather Host.scatterAdd Host.rsqrt Host.expm1 Host.divf in
set_option maxRecDepth 8192 in
set_option maxHeartbeats 1000000 in
/-- Layer 2's batch normalisation and ELU. -/
theorem bn2_eq (W : Valuation τ sig (Elt F)) :
    after R6 W (main_v98 : DevRef τ sig)
      = Cert.Spec.bnEluT (W (main_v82 : DevRef τ sig)) (W (main_arg12 : DevRef τ sig)) (W (main_arg13 : DevRef τ sig))
          (W (main_arg10 : DevRef τ sig)) (W (main_arg11 : DevRef τ sig)) := by
  dsimp only [R6]
  after_results_simp
  rfl

attribute [local irreducible] Host.gather Host.scatterAdd Host.rsqrt Host.expm1 Host.divf in
set_option maxRecDepth 8192 in
set_option maxHeartbeats 1000000 in
/-- The per-graph sums and counts, the mean pooling and the classifier, from layer 2's output. -/
theorem pool_eq (W : Valuation τ sig (Elt F)) :
    after R8 (after R7 W) (main_v115 : DevRef τ sig)
      = Cert.Spec.poolT (Cert.Spec.sumsT (W (main_arg3 : DevRef τ sig)) (W (main_v98 : DevRef τ sig)))
          (Cert.Spec.cntT (W (main_arg3 : DevRef τ sig))) (W (main_arg14 : DevRef τ sig)) (W (main_arg15 : DevRef τ sig)) := by
  dsimp only [R7, R8]
  after_results_simp
  rfl

/-! ## The whole line -/

/-- Rewrites the contents of a buffer after a list it is not written by to the contents before, as long as some such
    occurrence is left. -/
local macro "frames " l:ident : tactic => `(tactic| repeat (rw [$l:ident]; rotate_left; decide))

/-- The output buffer after the whole line is the network of the sixteen arguments. -/
theorem out_eq (V : Valuation τ sig (Elt F)) :
    after ops V (main_v115 : DevRef τ sig)
      = Cert.Spec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  simp only [ops, after_append]
  rw [pool_eq, bn2_eq]
  frames R6_frame
  rw [agg2_eq]
  frames R5_frame
  rw [bn1_eq]
  frames R4_frame
  frames R3_frame
  rw [agg1_eq]
  frames R2_frame
  rw [nrm_eq]
  frames R1_frame
  frames R0_frame
  rfl

theorem arg0_eq (V : Valuation τ sig (Elt F)) : after ops V (main_arg0 : DevRef τ sig) = V (main_arg0 : DevRef τ sig) :=
  ops_frame V (by decide) (by decide) (by decide) (by decide) (by decide) (by decide) (by decide) (by decide) (by decide)
theorem arg1_eq (V : Valuation τ sig (Elt F)) : after ops V (main_arg1 : DevRef τ sig) = V (main_arg1 : DevRef τ sig) :=
  ops_frame V (by decide) (by decide) (by decide) (by decide) (by decide) (by decide) (by decide) (by decide) (by decide)
theorem arg2_eq (V : Valuation τ sig (Elt F)) : after ops V (main_arg2 : DevRef τ sig) = V (main_arg2 : DevRef τ sig) :=
  ops_frame V (by decide) (by decide) (by decide) (by decide) (by decide) (by decide) (by decide) (by decide) (by decide)
theorem arg3_eq (V : Valuation τ sig (Elt F)) : after ops V (main_arg3 : DevRef τ sig) = V (main_arg3 : DevRef τ sig) :=
  ops_frame V (by decide) (by decide) (by decide) (by decide) (by decide) (by decide) (by decide) (by decide) (by decide)
theorem arg4_eq (V : Valuation τ sig (Elt F)) : after ops V (main_arg4 : DevRef τ sig) = V (main_arg4 : DevRef τ sig) :=
  ops_frame V (by decide) (by decide) (by decide) (by decide) (by decide) (by decide) (by decide) (by decide) (by decide)
theorem arg5_eq (V : Valuation τ sig (Elt F)) : after ops V (main_arg5 : DevRef τ sig) = V (main_arg5 : DevRef τ sig) :=
  ops_frame V (by decide) (by decide) (by decide) (by decide) (by decide) (by decide) (by decide) (by decide) (by decide)
theorem arg6_eq (V : Valuation τ sig (Elt F)) : after ops V (main_arg6 : DevRef τ sig) = V (main_arg6 : DevRef τ sig) :=
  ops_frame V (by decide) (by decide) (by decide) (by decide) (by decide) (by decide) (by decide) (by decide) (by decide)
theorem arg7_eq (V : Valuation τ sig (Elt F)) : after ops V (main_arg7 : DevRef τ sig) = V (main_arg7 : DevRef τ sig) :=
  ops_frame V (by decide) (by decide) (by decide) (by decide) (by decide) (by decide) (by decide) (by decide) (by decide)
theorem arg8_eq (V : Valuation τ sig (Elt F)) : after ops V (main_arg8 : DevRef τ sig) = V (main_arg8 : DevRef τ sig) :=
  ops_frame V (by decide) (by decide) (by decide) (by decide) (by decide) (by decide) (by decide) (by decide) (by decide)
theorem arg9_eq (V : Valuation τ sig (Elt F)) : after ops V (main_arg9 : DevRef τ sig) = V (main_arg9 : DevRef τ sig) :=
  ops_frame V (by decide) (by decide) (by decide) (by decide) (by decide) (by decide) (by decide) (by decide) (by decide)
theorem arg10_eq (V : Valuation τ sig (Elt F)) : after ops V (main_arg10 : DevRef τ sig) = V (main_arg10 : DevRef τ sig) :=
  ops_frame V (by decide) (by decide) (by decide) (by decide) (by decide) (by decide) (by decide) (by decide) (by decide)
theorem arg11_eq (V : Valuation τ sig (Elt F)) : after ops V (main_arg11 : DevRef τ sig) = V (main_arg11 : DevRef τ sig) :=
  ops_frame V (by decide) (by decide) (by decide) (by decide) (by decide) (by decide) (by decide) (by decide) (by decide)
theorem arg12_eq (V : Valuation τ sig (Elt F)) : after ops V (main_arg12 : DevRef τ sig) = V (main_arg12 : DevRef τ sig) :=
  ops_frame V (by decide) (by decide) (by decide) (by decide) (by decide) (by decide) (by decide) (by decide) (by decide)
theorem arg13_eq (V : Valuation τ sig (Elt F)) : after ops V (main_arg13 : DevRef τ sig) = V (main_arg13 : DevRef τ sig) :=
  ops_frame V (by decide) (by decide) (by decide) (by decide) (by decide) (by decide) (by decide) (by decide) (by decide)
theorem arg14_eq (V : Valuation τ sig (Elt F)) : after ops V (main_arg14 : DevRef τ sig) = V (main_arg14 : DevRef τ sig) :=
  ops_frame V (by decide) (by decide) (by decide) (by decide) (by decide) (by decide) (by decide) (by decide) (by decide)
theorem arg15_eq (V : Valuation τ sig (Elt F)) : after ops V (main_arg15 : DevRef τ sig) = V (main_arg15 : DevRef τ sig) :=
  ops_frame V (by decide) (by decide) (by decide) (by decide) (by decide) (by decide) (by decide) (by decide) (by decide)

/-- On the device, for any float values, from any memory with zero counters: every weakly fair execution of the entry
    point terminates with the output buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115) = Cert.Spec.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v115).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_seq scopedRefs_eq scopedSems_eq defs main (fun _ => ops) main_eq (fun _ => ops_sub) m ρ (fun _ => ops_fresh))

end Cert.ReferenceIdeal.Hand

end
-- ==== Proof.lean ====
/-
  A graph classifier — two graph-convolution layers (project the node features, sum norm · h[row] over the edges that
  point at each node, normalise per feature, ELU) and a mean pooling over graphs followed by a linear classifier —
  computed by a kernel program whose dense stages (the two projections, the two normalise-and-ELU passes, the pooled
  classifier) are tiled regions among host operations, against a reference that is host operations only.
  Over the extended reals the two programs compute one function, `Cert.Spec.refOut`, of the sixteen argument arrays:
  the gathers, scatter-adds and the edge normalisation are the same host operations on both sides; a projection's
  matrix product into a zero accumulator is the reference's contraction, block by block of rows; the kernel's
  select (v > 0) v (exp v − 1) is the reference's select (v > 0) v (1 · expm1 (select (v > 0) 0 v)) at every entry;
  the division by max(count, 1) and the classifier's product and bias are entry for entry the reference's. No law used
  needs finiteness, so the precondition is never opened. The frames of the two kernel programs are the generated
  launches; the reference's frame is its run with the result dropped; the idealization rewrote nothing.
-/
import proofs.«171306_j22711787061812_1_alg».proof.Defs
import proofs.«171306_j22711787061812_1_alg».proof.Proof.Gen.Kernel
import proofs.«171306_j22711787061812_1_alg».proof.Proof.Gen.Kernel.Frame
import proofs.«171306_j22711787061812_1_alg».proof.Proof.Gen.KernelIdeal
import proofs.«171306_j22711787061812_1_alg».proof.Proof.Gen.KernelIdeal.Frame
import proofs.«171306_j22711787061812_1_alg».proof.Proof.Gen.ReferenceIdeal
import proofs.«171306_j22711787061812_1_alg».proof.Proof.Gen.Pre_finite_inputs
import proofs.«171306_j22711787061812_1_alg».proof.Proof.KernelRun
import proofs.«171306_j22711787061812_1_alg».proof.Proof.KernelValue
import proofs.«171306_j22711787061812_1_alg».proof.Proof.RefRun
import Idealize.ShloMosaic.Adequacy
import Idealize.ShloMosaic.Init

noncomputable section

namespace Cert.Proof

open Idealize.ShloMosaic Idealize.SL.Sem

/-- The word-level kernel program runs and keeps its arguments: the launch over its segments. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories that agree on the arguments both programs end with the result array at the network `refOut` of the
    arguments, and with the arguments unchanged. -/
theorem algebraic : Cert.algebraic_KernelIdeal_ReferenceIdeal := by
  intro m ρ m' ρ' _ hagree
  refine ⟨fun c => Cert.Spec.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.out_eq m ρ c), (h c).2⟩) (Cert.KernelIdeal.Hand.run_out m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
